-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x256 .f32) (main_arg1 : FVec F S4096x4096 .f32) (main_arg2 : FVec F S256x256 .f32) (main_arg3 : FVec F S256x256 .f32) (main_arg4 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S512x4096 : Shape := ⟨2, ![512, 4096]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S2048x256, .f32⟩
  | .hbm, ⟨7, _⟩ => ⟨S2048x256, .f32⟩
  | .hbm, ⟨8, _⟩ => ⟨S4096x256, .f32⟩
  | .local _ .vmem, ⟨0, _⟩ => ⟨S4096x256, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let arg0 : BitVec 32 := BitVec.ofNat 32 (i 0).val
  let c4_i32 : BitVec 32 := 4#32
  let v6 : BitVec 32 := Scalar.addi arg0 c4_i32
  let c512_i32_1 : BitVec 32 := 512#32
  let v7 : BitVec 32 := Scalar.muli v6 c512_i32_1
  let v8 : Index := Scalar.indexCast v7
  let c0_2 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  concatenates_S2048x256_S2048x256_S4096x256_d0 : Shape.Concatenates [S2048x256, S2048x256] S4096x256 0
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  h_S512x256 : 0 < S512x256.numel
  inb_S512x4096_S512x4096_0_0 : ∀ a, (![0, 0] : Fin 2 → Nat) a + S512x4096.size a ≤ S512x4096.size a
  h_S512x4096 : 0 < S512x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  k0_off1_inb : ∀ i : grid0.Coords, ∀ a, (k0_off1 i) a + S512x256.size a ≤ S4096x256.size a
  k0_off2_inb : ∀ i : grid0.Coords, ∀ a, (k0_off2 i) a + S512x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x256.size a
  hwx0_6 : ∀ i : grid0.Coords, EltTy.bits .f32 = 32 ∨ (Rect.block (s := S2048x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x256.size a
  hwx0_7 : ∀ i : grid0.Coords, EltTy.bits .f32 = 32 ∨ (Rect.block (s := S2048x256) S512x256.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.WordRuns.lean ====
/-
  The kernel body run once per control case, on any whole staging buffers.

  The body has one branch, on "this is grid point 0". At point 0 it first stores the message matrix
  attr · w into the scratch buffer and then, like every later point, loads two 512-row slices of attr,
  the two mask blocks, root, the bias row and the scratch, and stores the two output blocks. At a later
  point the scratch is read as the point before left it and is not written.

  Each run is stated as: the six input buffers at named contents and the output buffers at anything go in;
  the inputs come back unchanged and each written buffer comes back as the list of pieces the stores
  wrote (found by the symbolic run itself).
-/
import proofs.«126694_g89275190215169_cont_sun_m_580_10_alg».proof.Proof.Gen.Kernel.Launch
import proofs.«126694_g89275190215169_cont_sun_m_580_10_alg».proof.Proof.Gen.Kernel.Skeleton
import proofs.«126694_g89275190215169_cont_sun_m_580_10_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition as a proposition over the grid coordinates: the scalar chain
    `(j == 0) → zero-extend → (≠ 0)` of the printed body. -/
abbrev isFirst (i : grid0.Coords) : Prop :=
  (Scalar.cmpi .ne (Scalar.extui (Scalar.cmpi .eq (BitVec.ofNat 32 (i 0).val) 0#32)) 0#32) = 1#1

/-- It holds exactly at grid point 0 (decided over the four points). -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The body at grid point 0: the scratch ends as the pieces of the message-matrix store, the two output
    buffers as the pieces of their stores. -/
noncomputable def runFirst (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) :
    Σ' (L7 : List (View.Piece (Elt F) S512x256 .f32)) (L8 : List (View.Piece (Elt F) S512x256 .f32)), { LS : List (View.Piece (Elt F) S4096x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 1000000 in
/-- The body at a later grid point: the scratch is read at the contents `xs` it was left with and comes back
    unchanged; the two output buffers end as the pieces of their stores. -/
noncomputable def runLater (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) :
    Σ' (L7 : List (View.Piece (Elt F) S512x256 .f32)), { L8 : List (View.Piece (Elt F) S512x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xs) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg9.eq_unread hf9
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; isplitr; · ipureintro; exact harg9.read_unread _
    iexact H9

end Cert.Kernel.Hand

end
-- ==== Proof.WordPieces.lean ====
/-
  What the body's stores leave, as plain terms.

  Every store of the body writes a whole buffer, so what a buffer holds afterwards is just the stored value:
  the scratch holds the message matrix attr · w (the matrix product of the whole attr block and the w block),
  output a's buffer holds  mask_a · scratch + attr_a · root + bias  and output b's the same with the b-slices,
  where attr_a and attr_b are the 512-row slices of the attr block at the rows the point's offsets name.
-/
import proofs.«126694_g89275190215169_cont_sun_m_580_10_alg».proof.Proof.WordRuns
import Idealize.ShloMosaic.Lib.Pipeline.Value
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-- The message matrix the first point stores in the scratch. -/
def msgOf (x1 : Vec F S4096x256 .f32) (x4 : Vec F S256x256 .f32) : Vec F S4096x256 .f32 := k0_pay2 x1 x4

/-- The 512 rows of the attr block that output a's rows pair with at coordinates `i`. -/
def attrA (i : grid0.Coords) (x1 : Vec F S4096x256 .f32) : Vec F S512x256 .f32 :=
  View.ld x1 (Rect.unit (s := S4096x256) (k0_off1 i) S512x256.size (k0_off1_inb i))
/-- The 512 rows of the attr block that output b's rows pair with. -/
def attrB (i : grid0.Coords) (x1 : Vec F S4096x256 .f32) : Vec F S512x256 .f32 :=
  View.ld x1 (Rect.unit (s := S4096x256) (k0_off2 i) S512x256.size (k0_off2_inb i))

/-- Output a's block: mask_a · scratch + attr_a · root + bias. -/
def outA (i : grid0.Coords) (x1 : Vec F S4096x256 .f32) (x2 : Vec F S512x4096 .f32) (xs : Vec F S4096x256 .f32)
    (x5 : Vec F S256x256 .f32) (x6 : Vec F S1x256 .f32) : Vec F S512x256 .f32 :=
  k0_pay3 (attrA i x1) x2 xs x5 x6
/-- Output b's block: mask_b · scratch + attr_b · root + bias. -/
def outB (i : grid0.Coords) (x1 : Vec F S4096x256 .f32) (x3 : Vec F S512x4096 .f32) (xs : Vec F S4096x256 .f32)
    (x5 : Vec F S256x256 .f32) (x6 : Vec F S1x256 .f32) : Vec F S512x256 .f32 :=
  k0_pay1 (k0_pay4 (attrB i x1) x3 xs x5) x6

/-! ## The first point -/

theorem first_scratch_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S4096x256.Idx) : ∃ pc ∈ (runFirst (F := F) c i arg1 harg1 arg2 harg2 arg3 harg3 arg4 harg4 arg5 harg5 arg6 harg6 arg7 harg7 arg8 harg8 arg9 harg9 hc x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).2.2.1 S4096x256.size (by sl_kernel_rfl) y
theorem first_a_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S512x256.Idx) : ∃ pc ∈ (runFirst (F := F) c i arg1 harg1 arg2 harg2 arg3 harg3 arg4 harg4 arg5 harg5 arg6 harg6 arg7 harg7 arg8 harg8 arg9 harg9 hc x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).1 S512x256.size (by sl_kernel_rfl) y
theorem first_b_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S512x256.Idx) : ∃ pc ∈ (runFirst (F := F) c i arg1 harg1 arg2 harg2 arg3 harg3 arg4 harg4 arg5 harg5 arg6 harg6 arg7 harg7 arg8 harg8 arg9 harg9 hc x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).2.1 S512x256.size (by sl_kernel_rfl) y

theorem first_scratch_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).2.2.1 = msgOf x1 x4 := by
  unfold runFirst; dsimp only; sl_unfold_run_names
  rw [View.canon_unit_zero zeros2]
  simp only [View.readAt_eq_ld, harg1.read_unread, harg4.read_unread, View.ld_unit_zero (S := S4096x256) zeros2, View.ld_unit_zero (S := S256x256) zeros2]
  rfl

theorem first_a_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).1 = outA i x1 x2 (msgOf x1 x4) x5 x6 := by
  unfold runFirst; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2]
  rfl

theorem first_b_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).2.1 = outB i x1 x3 (msgOf x1 x4) x5 x6 := by
  unfold runFirst; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2]
  rfl

/-! ## A later point -/

theorem later_a_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) (y : S512x256.Idx) : ∃ pc ∈ (runLater (F := F) c i arg1 harg1 arg2 harg2 arg3 harg3 arg4 harg4 arg5 harg5 arg6 harg6 arg7 harg7 arg8 harg8 arg9 harg9 hc x1 x2 x3 x4 x5 x6 xs).1, y ∈ pc.1.set :=
  View.cover_of_tiledL (runLater (F := F) c i arg1 harg1 arg2 harg2 arg3 harg3 arg4 harg4 arg5 harg5 arg6 harg6 arg7 harg7 arg8 harg8 arg9 harg9 hc x1 x2 x3 x4 x5 x6 xs).1 S512x256.size (by sl_kernel_rfl) y
theorem later_b_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) (y : S512x256.Idx) : ∃ pc ∈ (runLater (F := F) c i arg1 harg1 arg2 harg2 arg3 harg3 arg4 harg4 arg5 harg5 arg6 harg6 arg7 harg7 arg8 harg8 arg9 harg9 hc x1 x2 x3 x4 x5 x6 xs).2.1, y ∈ pc.1.set :=
  View.cover_of_tiledL (runLater (F := F) c i arg1 harg1 arg2 harg2 arg3 harg3 arg4 harg4 arg5 harg5 arg6 harg6 arg7 harg7 arg8 harg8 arg9 harg9 hc x1 x2 x3 x4 x5 x6 xs).2.1 S512x256.size (by sl_kernel_rfl) y

theorem later_a_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) : View.canon (runLater (F := F) c i arg1 harg1 arg2 harg2 arg3 harg3 arg4 harg4 arg5 harg5 arg6 harg6 arg7 harg7 arg8 harg8 arg9 harg9 hc x1 x2 x3 x4 x5 x6 xs).1 = outA i x1 x2 xs x5 x6 := by
  unfold runLater; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2, harg9.read_unread]
  rfl

theorem later_b_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) : View.canon (runLater (F := F) c i arg1 harg1 arg2 harg2 arg3 harg3 arg4 harg4 arg5 harg5 arg6 harg6 arg7 harg7 arg8 harg8 arg9 harg9 hc x1 x2 x3 x4 x5 x6 xs).2.1 = outB i x1 x3 xs x5 x6 := by
  unfold runLater; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2, harg9.read_unread]
  rfl

end Cert.Kernel.Hand

end
-- ==== Proof.WordBody.lean ====
/-
  The proof data of the pipelined call and the body's obligation at every grid point.

  Between grid points the only thing the body keeps is the scratch buffer: before point 0 it holds anything,
  after every point it holds the message matrix attr · w computed at point 0 from the (whole) attr block and
  the w block. After the body at point t the six input buffers hold their blocks as fetched, output a's
  buffer holds  mask_a(t) · (attr · w) + attr_a(t) · root + bias  and output b's the same over the b-slices.
  The aggregation matrix is handed to the call twice (its row block t as window 1, its row block t + 4 as
  window 2): each of the two windows holds half of the array's share, which is all a read needs.
-/
import proofs.«126694_g89275190215169_cont_sun_m_580_10_alg».proof.Proof.WordPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the call finds them -/

/-- Core `c`'s buffers when the call is entered: the launch contents after the one host operation before
    the call (the bias vector re-laid as a 1 × 256 row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an
    unfetched window's block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the scratch -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
/-- The scratch operand: a whole buffer of the call's own, kept across grid points. -/
abbrev scM : Memref sig .tc .vmem S4096x256 .f32 := Memref.whole cc0_scratch0

/-- The scoped buffers the pipeline does not stage are the scratch alone, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## What the buffers hold -/

/-- The message matrix attr · w, computed from the attr and w blocks of point 0 (both windows' blocks are the
    whole arrays at every point). -/
def scr (c : Dev nD) : Vec F S4096x256 .f32 := msgOf (iblk m c 0 t0_0) (iblk m c 3 t0_0)

/-- Output a's block after the body at point `t`. -/
def blockA (c : Dev nD) (t : Fin cfg0.N) : Vec F S512x256 .f32 :=
  outA (grid0.coords t) (iblk m c 0 t) (iblk m c 1 t) (scr m c) (iblk m c 4 t) (iblk m c 5 t)
/-- Output b's block after the body at point `t`. -/
def blockB (c : Dev nD) (t : Fin cfg0.N) : Vec F S512x256 .f32 :=
  outB (grid0.coords t) (iblk m c 0 t) (iblk m c 2 t) (scr m c) (iblk m c 4 t) (iblk m c 5 t)

/-- The invariant between points: before point 0 the scratch at anything, afterwards at the message matrix. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

/-- The share of its array each input window holds: the two windows on the aggregation matrix half each. -/
def shareOf : Fin cfg0.W → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨7, _⟩ => fullShare

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockA m c t
    | ⟨7, _⟩ => blockB m c t
  Φ t := PhiS m c t.val
  q := shareOf
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockA m c t := by dsimp only [dats]
theorem after7 (c : Dev nD) (t : Fin cfg0.N) : (dats m 0 c).after 7 t = blockB m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the inputs' buffers hold their blocks; at point 0 the scratch arrives at anything and
    leaves at the message matrix of the point's attr and w blocks, at a later point it arrives and leaves at the
    message matrix; the two output buffers leave at their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  by_cases h0 : t.val = 0
  · obtain rfl : t = t0_0 := Fin.ext h0
    rw [show PhiS m c t0_0.val = Pipeline.scopedRest (Ix := Unit) (Name := ℕ) (U := UR sig nD τ) (Lvl := ℕ) (Val := Elt F) spec0 c from rfl, scoped_eq,
      show PhiS m c (t0_0.val + 1) = owns (c : Thread nD τ) scM fullShare (scr m c) from rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM (Memref.isWhole_whole _) ((isFirst_iff t0_0).mpr rfl) (iblk m c 0 t0_0) (iblk m c 1 t0_0) (iblk m c 2 t0_0) (iblk m c 3 t0_0) (iblk m c 4 t0_0) (iblk m c 5 t0_0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS]
    · unfold owns; iexists _; isplitr
      swap; · iexact HS
      ipureintro
      exact (View.read_writes_eq_canon _ _ _ (first_scratch_cover c _ _ _ _ _ _ _ _ _ _ _ _ _ _ _ _ _ _ _ _ _ _ _ _ _ _)).trans (first_scratch_eq c _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      exact (View.read_writes_eq_canon _ _ _ (first_a_cover c _ _ _ _ _ _ _ _ _ _ _ _ _ _ _ _ _ _ _ _ _ _ _ _ _ _)).trans (first_a_eq c _ _ _ _ _ _ _ _ _ _ _ _ _ _ _ _ _ _ _ _ _ _ _ _ _ _)
    · unfold owns; iexists _; isplitr
      swap; · iexact H7
      ipureintro
      exact (View.read_writes_eq_canon _ _ _ (first_b_cover c _ _ _ _ _ _ _ _ _ _ _ _ _ _ _ _ _ _ _ _ _ _ _ _ _ _)).trans (first_b_eq c _ _ _ _ _ _ _ _ _ _ _ _ _ _ _ _ _ _ _ _ _ _ _ _ _ _)
  · obtain ⟨n, hn⟩ : ∃ n, t.val = n + 1 := ⟨t.val - 1, by omega⟩
    rw [hn]
    rw [show PhiS m c (n + 1) = owns (c : Thread nD τ) scM fullShare (scr m c) from rfl,
      show PhiS m c (n + 1 + 1) = owns (c : Thread nD τ) scM fullShare (scr m c) from rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (iblk m c 0 t) (iblk m c 1 t) (iblk m c 2 t) (iblk m c 3 t) (iblk m c 4 t) (iblk m c 5 t) (scr m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      exact (View.read_writes_eq_canon _ _ _ (later_a_cover c _ _ _ _ _ _ _ _ _ _ _ _ _ _ _ _ _ _ _ _ _ _ _ _ _ _ _)).trans (later_a_eq c _ _ _ _ _ _ _ _ _ _ _ _ _ _ _ _ _ _ _ _ _ _ _ _ _ _ _)
    · unfold owns; iexists _; isplitr
      swap; · iexact H7
      ipureintro
      exact (View.read_writes_eq_canon _ _ _ (later_b_cover c _ _ _ _ _ _ _ _ _ _ _ _ _ _ _ _ _ _ _ _ _ _ _ _ _ _ _)).trans (later_b_eq c _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WordFinal.lean ====
/-
  The two output arrays after the last write-back, and the result array after the concatenation.
-/
import proofs.«126694_g89275190215169_cont_sun_m_580_10_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output arrays after the last write-back. -/
abbrev finalA (c : Dev nD) : (⟨S2048x256, .f32⟩ : BufTy).Contents (Elt F) := (dats m 0 c).arrAt 6 cfg0.N
abbrev finalB (c : Dev nD) : (⟨S2048x256, .f32⟩ : BufTy).Contents (Elt F) := (dats m 0 c).arrAt 7 cfg0.N

/-- The result array after the concatenation: output a's rows above output b's. -/
def finalV0 (c : Dev nD) : Buf (Elt F) ((c : Thread nD τ).loc main_v0) :=
  concatenate S4096x256 0 [⟨S2048x256, finalA m c⟩, ⟨S2048x256, finalB m c⟩] concatenates_S2048x256_S2048x256_S4096x256_d0

end Cert.Kernel.Hand

end
-- ==== Proof.WordLaunch.lean ====
/-
  The launch: from any memory, every weakly fair execution of @main terminates, the result array ends as the
  two output arrays one above the other, and the five argument arrays end unchanged.

  @main is one host line (the bias vector re-laid as a row), the pipelined call, and one host line (the two
  half-height outputs concatenated). At the call's entry each array behind a window is held whole; the
  aggregation matrix, which two windows read, is dealt to them as its two half shares — a read needs no more
  — and every other array goes to its one window whole. The bias vector itself and the result array bypass
  the call. After the call the concatenation reads the two output arrays as the last write-backs left them.
-/
import proofs.«126694_g89275190215169_cont_sun_m_580_10_alg».proof.Proof.WordFinal
import Idealize.ShloMosaic.Lib.Pipeline.Kit
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the call continued by the concatenation, at the contents after the re-laying of the bias. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub hostOps0_fresh main_chain

/-! ## The arrays at the call's entry -/

/-- The distinct arrays behind the eight windows: seven, the aggregation matrix being behind two. -/
theorem arr_image : (Finset.univ.image (Pipeline.arrRef spec0) : Finset (Ref sig .tc))
    = [main_arg0, main_arg1, main_arg2, main_arg3, main_call0_v0, main_call0_v1_0, main_call0_v1_1].toFinset := by decide

/-- The arrays behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_call0_v0) ↦{fullShare} W main_call0_v0) ∗ (((c : Thread nD τ).loc main_call0_v1_0) ↦{fullShare} W main_call0_v1_0)
          ∗ (((c : Thread nD τ).loc main_call0_v1_1) ↦{fullShare} W main_call0_v1_1)) :=
  BI.bigSep_eq_bigSepL_of_eq _ arr_image (by decide) _

/-- Every window's array is a whole buffer: the windows' arrays are the buffers behind them, each at its window's share. -/
theorem arrays_pts (c : Dev nD) (X : (w : Fin cfg0.W) → Buf (Elt F) ((cfg0.win w).arr.view.loc (c : Thread nD τ))) :
    (dats m 0 c).arrays X = bigSep Finset.univ fun w => ((((c : Thread nD τ).loc (Pipeline.arrRef spec0 w)) ↦{(dats m 0 c).share w} X w) : sProp 𝕄) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The whole arrays, each at the full share, make the windows' arrays at their shares: the aggregation matrix
    split into its two halves, one per window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_pts, bigSep_W0, share0, share1, share2, share3, share4, share5, share6, share7]
  iintro ⟨H0, H1, H2, H3, H5, H6, H7⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H5]; · iexact H5
  isplitl [H6]; · iexact H6
  iexact H7

/-! ## What bypasses the call, and the line after it -/

/-- The two unscoped buffers no window stages: the bias vector and the result array, at entry. -/
def Zin (c : Dev nD) : sProp 𝕄 :=
  iprop((((c : Thread nD τ).loc main_arg4) ↦{fullShare} V m c main_arg4) ∗ (((c : Thread nD τ).loc main_v0) ↦{fullShare} V m c main_v0))

def Zout (c : Dev nD) : sProp 𝕄 :=
  iprop((((c : Thread nD τ).loc main_arg4) ↦{fullShare} V m c main_arg4) ∗ (((c : Thread nD τ).loc main_v0) ↦{fullShare} finalV0 m c))

theorem hX (c : Dev nD) :
    (Pipeline.unscopedRestP (Ix := Unit) (Name := ℕ) (U := UR sig nD τ) (Lvl := ℕ) Pipeline.Prefetch.none spec0 c (V m c) : sProp 𝕄)
      ⊢ iprop(emp ∗ Zin m c) := by
  rw [Pipeline.unscopedRestP_none, unscopedRest0_eq]; unfold Zin
  iintro ⟨H4, H0⟩
  isplitr; · iempintro
  isplitl [H4]; · iexact H4
  iexact H0

/-! ## The concatenation after the call -/

/-- The three buffers the concatenation touches. -/
abbrev catRefs : Finset (DevRef τ sig) :=
  {Proc.devRef .tc main_call0_v1_0, Proc.devRef .tc main_call0_v1_1, Proc.devRef .tc main_v0}

/-- A valuation with the two output arrays at their final contents (every other buffer as at the call's entry). -/
def catVal (c : Dev nD) : Valuation τ sig (Elt F) := fun b =>
  if h : Proc.devRef .tc main_call0_v1_0 = b then cast (congrArg (fun b' : DevRef τ sig => b'.ty.Contents (Elt F)) h) (finalA m c)
  else if h : Proc.devRef .tc main_call0_v1_1 = b then cast (congrArg (fun b' : DevRef τ sig => b'.ty.Contents (Elt F)) h) (finalB m c)
  else V0 m c b

theorem catVal_a (c : Dev nD) : catVal m c (Proc.devRef .tc main_call0_v1_0) = finalA m c := by
  unfold catVal; rw [dif_pos rfl]; rfl
theorem catVal_b (c : Dev nD) : catVal m c (Proc.devRef .tc main_call0_v1_1) = finalB m c := by
  unfold catVal; rw [dif_neg (StableHlo.devRef_ne_of_ne (by decide)), dif_pos rfl]; rfl
theorem catVal_y (c : Dev nD) : catVal m c (Proc.devRef .tc main_v0) = V m c main_v0 := by
  unfold catVal; rw [dif_neg (StableHlo.devRef_ne_of_ne (by decide)), dif_neg (StableHlo.devRef_ne_of_ne (by decide))]

/-- The three buffers held are their three points-tos. -/
theorem held_cat (c : Dev nD) (W : Valuation τ sig (Elt F)) :
    (StableHlo.held (c.tc : Thread nD τ) catRefs W : sProp 𝕄)
      = iprop((((c : Thread nD τ).loc main_call0_v1_0) ↦{fullShare} W (Proc.devRef .tc main_call0_v1_0))
          ∗ (((c : Thread nD τ).loc main_call0_v1_1) ↦{fullShare} W (Proc.devRef .tc main_call0_v1_1))
          ∗ (((c : Thread nD τ).loc main_v0) ↦{fullShare} W (Proc.devRef .tc main_v0))) := by
  unfold StableHlo.held catRefs
  rw [bigSep_insert (by decide), bigSep_insert (by decide), bigSep_singleton]
  rfl

theorem cat_sub : ∀ ops ∈ ([hostOps1] : List (List (HloOp τ sig (Elt F)))), ∀ op ∈ ops, op.bufs ⊆ catRefs := by
  intro ops hops op hop
  simp only [List.mem_cons, List.mem_nil_iff, or_false] at hops
  subst hops
  simp only [hostOps1, List.mem_cons, List.mem_nil_iff, or_false] at hop
  subst hop
  exact Finset.Subset.refl _

theorem cat_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The concatenation's result in the result array, the two output arrays kept. -/
theorem cat_after (c : Dev nD) :
    StableHlo.after (List.flatten [hostOps1]) (catVal m c) (Proc.devRef .tc main_v0) = finalV0 m c
    ∧ StableHlo.after (List.flatten [hostOps1]) (catVal m c) (Proc.devRef .tc main_call0_v1_0) = finalA m c
    ∧ StableHlo.after (List.flatten [hostOps1]) (catVal m c) (Proc.devRef .tc main_call0_v1_1) = finalB m c := by
  simp only [List.flatten_cons, List.flatten_nil, List.append_nil, hostOps1, StableHlo.after_cons, StableHlo.after_nil]
  refine ⟨?_, ?_, ?_⟩
  · rw [StableHlo.binary_result', catVal_a, catVal_b]; rfl
  · rw [StableHlo.binary_result_ne' _ _ _ _ _ (show main_call0_v1_0 ≠ main_v0 by decide), catVal_a]
  · rw [StableHlo.binary_result_ne' _ _ _ _ _ (show main_call0_v1_1 ≠ main_v0 by decide), catVal_b]

set_option backward.isDefEq.respectTransparency.types false in
/-- The line after the call: from the call's exit — the windows' arrays as the last write-backs left them, the bias
    vector and the result array as at entry — the concatenation runs and hands back the same with the result array at
    output a's rows above output b's. -/
theorem tail_run (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_pts, bigSep_W0, share0, share1, share2, share3, share4, share5, share6, share7]
  unfold Zin Zout
  have Hw := Pipeline.wp_seqs_then (Ix := Unit) (Name := ℕ) (U := UR sig nD τ) (Lvl := ℕ) (fun q => (cfgs q).toPCfg (Val := Elt F)) defs₀ Variants.none c catRefs [] (K := Q') [hostOps1] cat_sub cat_fresh (catVal m c)
  rw [Pipeline.chain_nil, wp_pure, held_cat, held_cat, catVal_a, catVal_b, catVal_y, (cat_after m c).1, (cat_after m c).2.1, (cat_after m c).2.2] at Hw
  iintro ⟨Hk, Hb, ⟨A0, A1, A2, A3, A4, A5, A6, A7⟩, ⟨Z4, Z0⟩⟩
  ihave Hw' := Hw $$ [Hb A6 A7 Z0]
  · isplitl [Hb]; · iexact Hb
    isplitl [A6]; · iexact A6
    isplitl [A7]; · iexact A7
    iexact Z0
  iapply Hw'
  iintro ⟨Hb, A6, A7, Z0⟩
  imodintro
  iapply Hk
  isplitr [Z4 Z0]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [Z4]; · iexact Z4
  iexact Z0

/-! ## The invariant at the two ends, and the final reading -/

theorem PhiS_pos (c : Dev nD) (n : ℕ) (h : n ≠ 0) : PhiS m c n = owns (c : Thread nD τ) scM fullShare (scr m c) := by
  cases n with
  | zero => exact absurd rfl h
  | succ n => rfl

/-- After the last point the scratch is given back at some contents. -/
theorem hout (c : Dev nD) : (dats m 0 c).Φ (Fin.last cfg0.N)
    ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 4 := N_0; omega), scoped_eq]
  iintro H
  isplitr; · iempintro
  iexists _; iexact H

/-- Before the first point the scratch is taken at whatever it holds. -/
theorem hin (c : Dev nD) (P Q : sProp 𝕄) :
    iprop(P ∗ Q ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, -, HR⟩; iexact HR

/-- The two buffers that bypass the call, read in a final state. -/
def QY (c : Dev nD) (s : MemSt nD τ sig (Elt F)) : Prop :=
  s.mem ((c : Thread nD τ).loc main_arg4) = V m c main_arg4 ∧ s.mem ((c : Thread nD τ).loc main_v0) = finalV0 m c

theorem hY (c : Dev nD) (s' : Phys nD τ sig (Elt F)) :
    iprop((emp : sProp 𝕄) ∗ Zout m c ∗ SI s') ⊢ |={Set.univ}=> iprop(⌜QY m c s'.mem⌝ ∗ SI s') := by
  unfold Zout
  iintro ⟨-, ⟨H4, H0⟩, HSI⟩
  ihave R4 := (pointsTo_read_all ({()} : Finset Unit) (fun _ => (c : Thread nD τ).loc main_arg4) (fun _ => V m c main_arg4) s') $$ [H4 HSI]
  · rw [bigSep_singleton]; isplitl [H4] <;> iassumption
  icases R4 with ⟨%h4, HSI⟩
  ihave R0 := (pointsTo_read_all ({()} : Finset Unit) (fun _ => (c : Thread nD τ).loc main_v0) (fun _ => finalV0 m c) s') $$ [H0 HSI]
  · rw [bigSep_singleton]; isplitl [H0] <;> iassumption
  icases R0 with ⟨%h0, HSI⟩
  imodintro
  isplitr
  · ipureintro; exact ⟨h4 () (Finset.mem_singleton_self _), h0 () (Finset.mem_singleton_self _)⟩
  iexact HSI

/-- The one host line before the call writes only the re-laid bias row: every argument array is as launched. -/
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results

/-! ## The run -/

/-- What every final state satisfies: the result array is output a's rows above output b's, and the five argument
    arrays are as launched. -/
def Post : PUnit × MemSt nD τ sig (Elt F) → Prop := fun r => ∀ c : Dev nD,
  r.2.mem ((c : Thread nD τ).loc main_v0) = finalV0 m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

set_option backward.isDefEq.respectTransparency.types false in
/-- At the compiled mesh, for any float values, from any memory with zero counters: every weakly fair execution of
    @main terminates in a state satisfying `Post`. -/
theorem run_main : θ_run defs (onTc (τ := τ) (main (F := F))) ⟨m, fun _ => 0, ρ⟩ (Post m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m)
    (hsplit := hsplit m) (hpf := fun _ k => k.elim0)
    (X := fun _ => iprop(emp)) (Y := fun _ => iprop(emp)) (Z := Zin m) (Z' := Zout m)
    (hX := fun c => by rw [Pipeline.unscopedRestP_none]; exact (show _ ⊢ _ from by rw [← Pipeline.unscopedRestP_none]; exact hX m c))
    (hin := fun c => hin m c _ _)
    (hout := hout m) (htail := tail_run m) (QY := QY m) (hY := hY m)
    (hQ := fun s h c => ⟨(h c).2.2.2,
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      ((h c).1 3).trans (((dats m 0 c).arrAt_in 3 rfl _).trans ((A_eq m c 3).trans (V_arg2 m c))),
      ((h c).1 4).trans (((dats m 0 c).arrAt_in 4 rfl _).trans ((A_eq m c 4).trans (V_arg3 m c))),
      (h c).2.2.1.trans (V_arg4 m c)⟩)

end Cert.Kernel.Hand

end
-- ==== Proof.IdealRuns.lean ====
/-
  The kernel body run once per control case, on any whole staging buffers.

  The body has one branch, on "this is grid point 0". At point 0 it first stores the message matrix
  attr · w into the scratch buffer and then, like every later point, loads two 512-row slices of attr,
  the two mask blocks, root, the bias row and the scratch, and stores the two output blocks. At a later
  point the scratch is read as the point before left it and is not written.

  Each run is stated as: the six input buffers at named contents and the output buffers at anything go in;
  the inputs come back unchanged and each written buffer comes back as the list of pieces the stores
  wrote (found by the symbolic run itself).
-/
import proofs.«126694_g89275190215169_cont_sun_m_580_10_alg».proof.Proof.Gen.KernelIdeal.Launch
import proofs.«126694_g89275190215169_cont_sun_m_580_10_alg».proof.Proof.Gen.KernelIdeal.Skeleton
import proofs.«126694_g89275190215169_cont_sun_m_580_10_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition as a proposition over the grid coordinates: the scalar chain
    `(j == 0) → zero-extend → (≠ 0)` of the printed body. -/
abbrev isFirst (i : grid0.Coords) : Prop :=
  (Scalar.cmpi .ne (Scalar.extui (Scalar.cmpi .eq (BitVec.ofNat 32 (i 0).val) 0#32)) 0#32) = 1#1

/-- It holds exactly at grid point 0 (decided over the four points). -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The body at grid point 0: the scratch ends as the pieces of the message-matrix store, the two output
    buffers as the pieces of their stores. -/
noncomputable def runFirst (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) :
    Σ' (L7 : List (View.Piece (Elt F) S512x256 .f32)) (L8 : List (View.Piece (Elt F) S512x256 .f32)), { LS : List (View.Piece (Elt F) S4096x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 1000000 in
/-- The body at a later grid point: the scratch is read at the contents `xs` it was left with and comes back
    unchanged; the two output buffers end as the pieces of their stores. -/
noncomputable def runLater (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) :
    Σ' (L7 : List (View.Piece (Elt F) S512x256 .f32)), { L8 : List (View.Piece (Elt F) S512x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xs) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg9.eq_unread hf9
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; isplitr; · ipureintro; exact harg9.read_unread _
    iexact H9

end Cert.KernelIdeal.Hand

end
-- ==== Proof.IdealPieces.lean ====
/-
  What the body's stores leave, as plain terms.

  Every store of the body writes a whole buffer, so what a buffer holds afterwards is just the stored value:
  the scratch holds the message matrix attr · w (the matrix product of the whole attr block and the w block),
  output a's buffer holds  mask_a · scratch + attr_a · root + bias  and output b's the same with the b-slices,
  where attr_a and attr_b are the 512-row slices of the attr block at the rows the point's offsets name.
-/
import proofs.«126694_g89275190215169_cont_sun_m_580_10_alg».proof.Proof.IdealRuns
import Idealize.ShloMosaic.Lib.Pipeline.Value
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-- The message matrix the first point stores in the scratch. -/
def msgOf (x1 : Vec F S4096x256 .f32) (x4 : Vec F S256x256 .f32) : Vec F S4096x256 .f32 := k0_pay2 x1 x4

/-- The 512 rows of the attr block that output a's rows pair with at coordinates `i`. -/
def attrA (i : grid0.Coords) (x1 : Vec F S4096x256 .f32) : Vec F S512x256 .f32 :=
  View.ld x1 (Rect.unit (s := S4096x256) (k0_off1 i) S512x256.size (k0_off1_inb i))
/-- The 512 rows of the attr block that output b's rows pair with. -/
def attrB (i : grid0.Coords) (x1 : Vec F S4096x256 .f32) : Vec F S512x256 .f32 :=
  View.ld x1 (Rect.unit (s := S4096x256) (k0_off2 i) S512x256.size (k0_off2_inb i))

/-- Output a's block: mask_a · scratch + attr_a · root + bias. -/
def outA (i : grid0.Coords) (x1 : Vec F S4096x256 .f32) (x2 : Vec F S512x4096 .f32) (xs : Vec F S4096x256 .f32)
    (x5 : Vec F S256x256 .f32) (x6 : Vec F S1x256 .f32) : Vec F S512x256 .f32 :=
  k0_pay3 (attrA i x1) x2 xs x5 x6
/-- Output b's block: mask_b · scratch + attr_b · root + bias. -/
def outB (i : grid0.Coords) (x1 : Vec F S4096x256 .f32) (x3 : Vec F S512x4096 .f32) (xs : Vec F S4096x256 .f32)
    (x5 : Vec F S256x256 .f32) (x6 : Vec F S1x256 .f32) : Vec F S512x256 .f32 :=
  k0_pay1 (k0_pay4 (attrB i x1) x3 xs x5) x6

/-! ## The first point -/

theorem first_scratch_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S4096x256.Idx) : ∃ pc ∈ (runFirst (F := F) c i arg1 harg1 arg2 harg2 arg3 harg3 arg4 harg4 arg5 harg5 arg6 harg6 arg7 harg7 arg8 harg8 arg9 harg9 hc x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).2.2.1 S4096x256.size (by sl_kernel_rfl) y
theorem first_a_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S512x256.Idx) : ∃ pc ∈ (runFirst (F := F) c i arg1 harg1 arg2 harg2 arg3 harg3 arg4 harg4 arg5 harg5 arg6 harg6 arg7 harg7 arg8 harg8 arg9 harg9 hc x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).1 S512x256.size (by sl_kernel_rfl) y
theorem first_b_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) (y : S512x256.Idx) : ∃ pc ∈ (runFirst (F := F) c i arg1 harg1 arg2 harg2 arg3 harg3 arg4 harg4 arg5 harg5 arg6 harg6 arg7 harg7 arg8 harg8 arg9 harg9 hc x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 hc x1 x2 x3 x4 x5 x6).2.1 S512x256.size (by sl_kernel_rfl) y

theorem first_scratch_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).2.2.1 = msgOf x1 x4 := by
  unfold runFirst; dsimp only; sl_unfold_run_names
  rw [View.canon_unit_zero zeros2]
  simp only [View.readAt_eq_ld, harg1.read_unread, harg4.read_unread, View.ld_unit_zero (S := S4096x256) zeros2, View.ld_unit_zero (S := S256x256) zeros2]
  rfl

theorem first_a_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).1 = outA i x1 x2 (msgOf x1 x4) x5 x6 := by
  unfold runFirst; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2]
  rfl

theorem first_b_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : isFirst i) (x1 : Vec F S4096x256 .f32) (x2 x3 : Vec F S512x4096 .f32) (x4 x5 : Vec F S256x256 .f32) (x6 : Vec F S1x256 .f32) : View.canon (runFirst (F := F) c i arg1 harg1 arg2 harg2 arg3 harg3 arg4 harg4 arg5 harg5 arg6 harg6 arg7 harg7 arg8 harg8 arg9 harg9 hc x1 x2 x3 x4 x5 x6).2.1 = outB i x1 x3 (msgOf x1 x4) x5 x6 := by
  unfold runFirst; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2]
  rfl

/-! ## A later point -/

theorem later_a_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) (y : S512x256.Idx) : ∃ pc ∈ (runLater (F := F) c i arg1 harg1 arg2 harg2 arg3 harg3 arg4 harg4 arg5 harg5 arg6 harg6 arg7 harg7 arg8 harg8 arg9 harg9 hc x1 x2 x3 x4 x5 x6 xs).1, y ∈ pc.1.set :=
  View.cover_of_tiledL (runLater (F := F) c i arg1 harg1 arg2 harg2 arg3 harg3 arg4 harg4 arg5 harg5 arg6 harg6 arg7 harg7 arg8 harg8 arg9 harg9 hc x1 x2 x3 x4 x5 x6 xs).1 S512x256.size (by sl_kernel_rfl) y
theorem later_b_cover (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) (y : S512x256.Idx) : ∃ pc ∈ (runLater (F := F) c i arg1 harg1 arg2 harg2 arg3 harg3 arg4 harg4 arg5 harg5 arg6 harg6 arg7 harg7 arg8 harg8 arg9 harg9 hc x1 x2 x3 x4 x5 x6 xs).2.1, y ∈ pc.1.set :=
  View.cover_of_tiledL (runLater (F := F) c i arg1 harg1 arg2 harg2 arg3 harg3 arg4 harg4 arg5 harg5 arg6 harg6 arg7 harg7 arg8 harg8 arg9 harg9 hc x1 x2 x3 x4 x5 x6 xs).2.1 S512x256.size (by sl_kernel_rfl) y

theorem later_a_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) : View.canon (runLater (F := F) c i arg1 harg1 arg2 harg2 arg3 harg3 arg4 harg4 arg5 harg5 arg6 harg6 arg7 harg7 arg8 harg8 arg9 harg9 hc x1 x2 x3 x4 x5 x6 xs).1 = outA i x1 x2 xs x5 x6 := by
  unfold runLater; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2, harg9.read_unread]
  rfl

theorem later_b_eq (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4096x256 .f32) (harg9 : arg9.IsWhole) (hc : ¬isFirst i) (x1 : Vec F S4096x256 .f32) (x2 x3 : Vec F S512x4096 .f32) (x4 x5 : Vec F S256x256 .f32) (x6 : Vec F S1x256 .f32) (xs : Vec F S4096x256 .f32) : View.canon (runLater (F := F) c i arg1 harg1 arg2 harg2 arg3 harg3 arg4 harg4 arg5 harg5 arg6 harg6 arg7 harg7 arg8 harg8 arg9 harg9 hc x1 x2 x3 x4 x5 x6 xs).2.1 = outB i x1 x3 xs x5 x6 := by
  unfold runLater; dsimp only; sl_unfold_run_names
  rw [View.canon_unit_zero zeros2]
  simp only [View.readAt_eq_ld, harg1.read_unread, harg2.read_unread, harg3.read_unread, harg4.read_unread, harg5.read_unread, harg6.read_unread, View.readCov_unit_zero (S := S4096x256) arg9.view zeros2, View.ld_unit_zero (S := S4096x256) zeros2, View.ld_unit_zero (S := S256x256) zeros2, View.ld_unit_zero (S := S512x4096) zeros2, View.ld_unit_zero (S := S1x256) zeros2, harg9.read_unread]
  rfl

end Cert.KernelIdeal.Hand

end
-- ==== Proof.IdealBody.lean ====
/-
  The proof data of the pipelined call and the body's obligation at every grid point.

  Between grid points the only thing the body keeps is the scratch buffer: before point 0 it holds anything,
  after every point it holds the message matrix attr · w computed at point 0 from the (whole) attr block and
  the w block. After the body at point t the six input buffers hold their blocks as fetched, output a's
  buffer holds  mask_a(t) · (attr · w) + attr_a(t) · root + bias  and output b's the same over the b-slices.
  The aggregation matrix is handed to the call twice (its row block t as window 1, its row block t + 4 as
  window 2): each of the two windows holds half of the array's share, which is all a read needs.
-/
import proofs.«126694_g89275190215169_cont_sun_m_580_10_alg».proof.Proof.IdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the call finds them -/

/-- Core `c`'s buffers when the call is entered: the launch contents after the one host operation before
    the call (the bias vector re-laid as a 1 × 256 row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an
    unfetched window's block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the scratch -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
/-- The scratch operand: a whole buffer of the call's own, kept across grid points. -/
abbrev scM : Memref sig .tc .vmem S4096x256 .f32 := Memref.whole cc0_scratch0

/-- The scoped buffers the pipeline does not stage are the scratch alone, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## What the buffers hold -/

/-- The message matrix attr · w, computed from the attr and w blocks of point 0 (both windows' blocks are the
    whole arrays at every point). -/
def scr (c : Dev nD) : Vec F S4096x256 .f32 := msgOf (iblk m c 0 t0_0) (iblk m c 3 t0_0)

/-- Output a's block after the body at point `t`. -/
def blockA (c : Dev nD) (t : Fin cfg0.N) : Vec F S512x256 .f32 :=
  outA (grid0.coords t) (iblk m c 0 t) (iblk m c 1 t) (scr m c) (iblk m c 4 t) (iblk m c 5 t)
/-- Output b's block after the body at point `t`. -/
def blockB (c : Dev nD) (t : Fin cfg0.N) : Vec F S512x256 .f32 :=
  outB (grid0.coords t) (iblk m c 0 t) (iblk m c 2 t) (scr m c) (iblk m c 4 t) (iblk m c 5 t)

/-- The invariant between points: before point 0 the scratch at anything, afterwards at the message matrix. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

/-- The share of its array each input window holds: the two windows on the aggregation matrix half each. -/
def shareOf : Fin cfg0.W → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨7, _⟩ => fullShare

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockA m c t
    | ⟨7, _⟩ => blockB m c t
  Φ t := PhiS m c t.val
  q := shareOf
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockA m c t := by dsimp only [dats]
theorem after7 (c : Dev nD) (t : Fin cfg0.N) : (dats m 0 c).after 7 t = blockB m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the inputs' buffers hold their blocks; at point 0 the scratch arrives at anything and
    leaves at the message matrix of the point's attr and w blocks, at a later point it arrives and leaves at the
    message matrix; the two output buffers leave at their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  by_cases h0 : t.val = 0
  · obtain rfl : t = t0_0 := Fin.ext h0
    rw [show PhiS m c t0_0.val = Pipeline.scopedRest (Ix := Unit) (Name := ℕ) (U := UR sig nD τ) (Lvl := ℕ) (Val := Elt F) spec0 c from rfl, scoped_eq,
      show PhiS m c (t0_0.val + 1) = owns (c : Thread nD τ) scM fullShare (scr m c) from rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM (Memref.isWhole_whole _) ((isFirst_iff t0_0).mpr rfl) (iblk m c 0 t0_0) (iblk m c 1 t0_0) (iblk m c 2 t0_0) (iblk m c 3 t0_0) (iblk m c 4 t0_0) (iblk m c 5 t0_0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS]
    · unfold owns; iexists _; isplitr
      swap; · iexact HS
      ipureintro
      exact (View.read_writes_eq_canon _ _ _ (first_scratch_cover c _ _ _ _ _ _ _ _ _ _ _ _ _ _ _ _ _ _ _ _ _ _ _ _ _ _)).trans (first_scratch_eq c _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      exact (View.read_writes_eq_canon _ _ _ (first_a_cover c _ _ _ _ _ _ _ _ _ _ _ _ _ _ _ _ _ _ _ _ _ _ _ _ _ _)).trans (first_a_eq c _ _ _ _ _ _ _ _ _ _ _ _ _ _ _ _ _ _ _ _ _ _ _ _ _ _)
    · unfold owns; iexists _; isplitr
      swap; · iexact H7
      ipureintro
      exact (View.read_writes_eq_canon _ _ _ (first_b_cover c _ _ _ _ _ _ _ _ _ _ _ _ _ _ _ _ _ _ _ _ _ _ _ _ _ _)).trans (first_b_eq c _ _ _ _ _ _ _ _ _ _ _ _ _ _ _ _ _ _ _ _ _ _ _ _ _ _)
  · obtain ⟨n, hn⟩ : ∃ n, t.val = n + 1 := ⟨t.val - 1, by omega⟩
    rw [hn]
    rw [show PhiS m c (n + 1) = owns (c : Thread nD τ) scM fullShare (scr m c) from rfl,
      show PhiS m c (n + 1 + 1) = owns (c : Thread nD τ) scM fullShare (scr m c) from rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (iblk m c 0 t) (iblk m c 1 t) (iblk m c 2 t) (iblk m c 3 t) (iblk m c 4 t) (iblk m c 5 t) (scr m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      exact (View.read_writes_eq_canon _ _ _ (later_a_cover c _ _ _ _ _ _ _ _ _ _ _ _ _ _ _ _ _ _ _ _ _ _ _ _ _ _ _)).trans (later_a_eq c _ _ _ _ _ _ _ _ _ _ _ _ _ _ _ _ _ _ _ _ _ _ _ _ _ _ _)
    · unfold owns; iexists _; isplitr
      swap; · iexact H7
      ipureintro
      exact (View.read_writes_eq_canon _ _ _ (later_b_cover c _ _ _ _ _ _ _ _ _ _ _ _ _ _ _ _ _ _ _ _ _ _ _ _ _ _ _)).trans (later_b_eq c _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealFinal.lean ====
/-
  The two output arrays after the last write-back, and the result array after the concatenation.
-/
import proofs.«126694_g89275190215169_cont_sun_m_580_10_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output arrays after the last write-back. -/
abbrev finalA (c : Dev nD) : (⟨S2048x256, .f32⟩ : BufTy).Contents (Elt F) := (dats m 0 c).arrAt 6 cfg0.N
abbrev finalB (c : Dev nD) : (⟨S2048x256, .f32⟩ : BufTy).Contents (Elt F) := (dats m 0 c).arrAt 7 cfg0.N

/-- The result array after the concatenation: output a's rows above output b's. -/
def finalV0 (c : Dev nD) : Buf (Elt F) ((c : Thread nD τ).loc main_v0) :=
  concatenate S4096x256 0 [⟨S2048x256, finalA m c⟩, ⟨S2048x256, finalB m c⟩] concatenates_S2048x256_S2048x256_S4096x256_d0

end Cert.KernelIdeal.Hand

end
-- ==== Proof.IdealLaunch.lean ====
/-
  The launch: from any memory, every weakly fair execution of @main terminates, the result array ends as the
  two output arrays one above the other, and the five argument arrays end unchanged.

  @main is one host line (the bias vector re-laid as a row), the pipelined call, and one host line (the two
  half-height outputs concatenated). At the call's entry each array behind a window is held whole; the
  aggregation matrix, which two windows read, is dealt to them as its two half shares — a read needs no more
  — and every other array goes to its one window whole. The bias vector itself and the result array bypass
  the call. After the call the concatenation reads the two output arrays as the last write-backs left them.
-/
import proofs.«126694_g89275190215169_cont_sun_m_580_10_alg».proof.Proof.IdealFinal
import Idealize.ShloMosaic.Lib.Pipeline.Kit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the call continued by the concatenation, at the contents after the re-laying of the bias. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub hostOps0_fresh main_chain

/-! ## The arrays at the call's entry -/

/-- The distinct arrays behind the eight windows: seven, the aggregation matrix being behind two. -/
theorem arr_image : (Finset.univ.image (Pipeline.arrRef spec0) : Finset (Ref sig .tc))
    = [main_arg0, main_arg1, main_arg2, main_arg3, main_call0_v0, main_call0_v1_0, main_call0_v1_1].toFinset := by decide

/-- The arrays behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_call0_v0) ↦{fullShare} W main_call0_v0) ∗ (((c : Thread nD τ).loc main_call0_v1_0) ↦{fullShare} W main_call0_v1_0)
          ∗ (((c : Thread nD τ).loc main_call0_v1_1) ↦{fullShare} W main_call0_v1_1)) :=
  BI.bigSep_eq_bigSepL_of_eq _ arr_image (by decide) _

/-- Every window's array is a whole buffer: the windows' arrays are the buffers behind them, each at its window's share. -/
theorem arrays_pts (c : Dev nD) (X : (w : Fin cfg0.W) → Buf (Elt F) ((cfg0.win w).arr.view.loc (c : Thread nD τ))) :
    (dats m 0 c).arrays X = bigSep Finset.univ fun w => ((((c : Thread nD τ).loc (Pipeline.arrRef spec0 w)) ↦{(dats m 0 c).share w} X w) : sProp 𝕄) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The whole arrays, each at the full share, make the windows' arrays at their shares: the aggregation matrix
    split into its two halves, one per window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_pts, bigSep_W0, share0, share1, share2, share3, share4, share5, share6, share7]
  iintro ⟨H0, H1, H2, H3, H5, H6, H7⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  isplitl [H5]; · iexact H5
  isplitl [H6]; · iexact H6
  iexact H7

/-! ## What bypasses the call, and the line after it -/

/-- The two unscoped buffers no window stages: the bias vector and the result array, at entry. -/
def Zin (c : Dev nD) : sProp 𝕄 :=
  iprop((((c : Thread nD τ).loc main_arg4) ↦{fullShare} V m c main_arg4) ∗ (((c : Thread nD τ).loc main_v0) ↦{fullShare} V m c main_v0))

def Zout (c : Dev nD) : sProp 𝕄 :=
  iprop((((c : Thread nD τ).loc main_arg4) ↦{fullShare} V m c main_arg4) ∗ (((c : Thread nD τ).loc main_v0) ↦{fullShare} finalV0 m c))

theorem hX (c : Dev nD) :
    (Pipeline.unscopedRestP (Ix := Unit) (Name := ℕ) (U := UR sig nD τ) (Lvl := ℕ) Pipeline.Prefetch.none spec0 c (V m c) : sProp 𝕄)
      ⊢ iprop(emp ∗ Zin m c) := by
  rw [Pipeline.unscopedRestP_none, unscopedRest0_eq]; unfold Zin
  iintro ⟨H4, H0⟩
  isplitr; · iempintro
  isplitl [H4]; · iexact H4
  iexact H0

/-! ## The concatenation after the call -/

/-- The three buffers the concatenation touches. -/
abbrev catRefs : Finset (DevRef τ sig) :=
  {Proc.devRef .tc main_call0_v1_0, Proc.devRef .tc main_call0_v1_1, Proc.devRef .tc main_v0}

/-- A valuation with the two output arrays at their final contents (every other buffer as at the call's entry). -/
def catVal (c : Dev nD) : Valuation τ sig (Elt F) := fun b =>
  if h : Proc.devRef .tc main_call0_v1_0 = b then cast (congrArg (fun b' : DevRef τ sig => b'.ty.Contents (Elt F)) h) (finalA m c)
  else if h : Proc.devRef .tc main_call0_v1_1 = b then cast (congrArg (fun b' : DevRef τ sig => b'.ty.Contents (Elt F)) h) (finalB m c)
  else V0 m c b

theorem catVal_a (c : Dev nD) : catVal m c (Proc.devRef .tc main_call0_v1_0) = finalA m c := by
  unfold catVal; rw [dif_pos rfl]; rfl
theorem catVal_b (c : Dev nD) : catVal m c (Proc.devRef .tc main_call0_v1_1) = finalB m c := by
  unfold catVal; rw [dif_neg (StableHlo.devRef_ne_of_ne (by decide)), dif_pos rfl]; rfl
theorem catVal_y (c : Dev nD) : catVal m c (Proc.devRef .tc main_v0) = V m c main_v0 := by
  unfold catVal; rw [dif_neg (StableHlo.devRef_ne_of_ne (by decide)), dif_neg (StableHlo.devRef_ne_of_ne (by decide))]

/-- The three buffers held are their three points-tos. -/
theorem held_cat (c : Dev nD) (W : Valuation τ sig (Elt F)) :
    (StableHlo.held (c.tc : Thread nD τ) catRefs W : sProp 𝕄)
      = iprop((((c : Thread nD τ).loc main_call0_v1_0) ↦{fullShare} W (Proc.devRef .tc main_call0_v1_0))
          ∗ (((c : Thread nD τ).loc main_call0_v1_1) ↦{fullShare} W (Proc.devRef .tc main_call0_v1_1))
          ∗ (((c : Thread nD τ).loc main_v0) ↦{fullShare} W (Proc.devRef .tc main_v0))) := by
  unfold StableHlo.held catRefs
  rw [bigSep_insert (by decide), bigSep_insert (by decide), bigSep_singleton]
  rfl

theorem cat_sub : ∀ ops ∈ ([hostOps1] : List (List (HloOp τ sig (Elt F)))), ∀ op ∈ ops, op.bufs ⊆ catRefs := by
  intro ops hops op hop
  simp only [List.mem_cons, List.mem_nil_iff, or_false] at hops
  subst hops
  simp only [hostOps1, List.mem_cons, List.mem_nil_iff, or_false] at hop
  subst hop
  exact Finset.Subset.refl _

theorem cat_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The concatenation's result in the result array, the two output arrays kept. -/
theorem cat_after (c : Dev nD) :
    StableHlo.after (List.flatten [hostOps1]) (catVal m c) (Proc.devRef .tc main_v0) = finalV0 m c
    ∧ StableHlo.after (List.flatten [hostOps1]) (catVal m c) (Proc.devRef .tc main_call0_v1_0) = finalA m c
    ∧ StableHlo.after (List.flatten [hostOps1]) (catVal m c) (Proc.devRef .tc main_call0_v1_1) = finalB m c := by
  simp only [List.flatten_cons, List.flatten_nil, List.append_nil, hostOps1, StableHlo.after_cons, StableHlo.after_nil]
  refine ⟨?_, ?_, ?_⟩
  · rw [StableHlo.binary_result', catVal_a, catVal_b]; rfl
  · rw [StableHlo.binary_result_ne' _ _ _ _ _ (show main_call0_v1_0 ≠ main_v0 by decide), catVal_a]
  · rw [StableHlo.binary_result_ne' _ _ _ _ _ (show main_call0_v1_1 ≠ main_v0 by decide), catVal_b]

set_option backward.isDefEq.respectTransparency.types false in
/-- The line after the call: from the call's exit — the windows' arrays as the last write-backs left them, the bias
    vector and the result array as at entry — the concatenation runs and hands back the same with the result array at
    output a's rows above output b's. -/
theorem tail_run (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_pts, bigSep_W0, share0, share1, share2, share3, share4, share5, share6, share7]
  unfold Zin Zout
  have Hw := Pipeline.wp_seqs_then (Ix := Unit) (Name := ℕ) (U := UR sig nD τ) (Lvl := ℕ) (fun q => (cfgs q).toPCfg (Val := Elt F)) defs₀ Variants.none c catRefs [] (K := Q') [hostOps1] cat_sub cat_fresh (catVal m c)
  rw [Pipeline.chain_nil, wp_pure, held_cat, held_cat, catVal_a, catVal_b, catVal_y, (cat_after m c).1, (cat_after m c).2.1, (cat_after m c).2.2] at Hw
  iintro ⟨Hk, Hb, ⟨A0, A1, A2, A3, A4, A5, A6, A7⟩, ⟨Z4, Z0⟩⟩
  ihave Hw' := Hw $$ [Hb A6 A7 Z0]
  · isplitl [Hb]; · iexact Hb
    isplitl [A6]; · iexact A6
    isplitl [A7]; · iexact A7
    iexact Z0
  iapply Hw'
  iintro ⟨Hb, A6, A7, Z0⟩
  imodintro
  iapply Hk
  isplitr [Z4 Z0]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [Z4]; · iexact Z4
  iexact Z0

/-! ## The invariant at the two ends, and the final reading -/

theorem PhiS_pos (c : Dev nD) (n : ℕ) (h : n ≠ 0) : PhiS m c n = owns (c : Thread nD τ) scM fullShare (scr m c) := by
  cases n with
  | zero => exact absurd rfl h
  | succ n => rfl

/-- After the last point the scratch is given back at some contents. -/
theorem hout (c : Dev nD) : (dats m 0 c).Φ (Fin.last cfg0.N)
    ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 4 := N_0; omega), scoped_eq]
  iintro H
  isplitr; · iempintro
  iexists _; iexact H

/-- Before the first point the scratch is taken at whatever it holds. -/
theorem hin (c : Dev nD) (P Q : sProp 𝕄) :
    iprop(P ∗ Q ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, -, HR⟩; iexact HR

/-- The two buffers that bypass the call, read in a final state. -/
def QY (c : Dev nD) (s : MemSt nD τ sig (Elt F)) : Prop :=
  s.mem ((c : Thread nD τ).loc main_arg4) = V m c main_arg4 ∧ s.mem ((c : Thread nD τ).loc main_v0) = finalV0 m c

theorem hY (c : Dev nD) (s' : Phys nD τ sig (Elt F)) :
    iprop((emp : sProp 𝕄) ∗ Zout m c ∗ SI s') ⊢ |={Set.univ}=> iprop(⌜QY m c s'.mem⌝ ∗ SI s') := by
  unfold Zout
  iintro ⟨-, ⟨H4, H0⟩, HSI⟩
  ihave R4 := (pointsTo_read_all ({()} : Finset Unit) (fun _ => (c : Thread nD τ).loc main_arg4) (fun _ => V m c main_arg4) s') $$ [H4 HSI]
  · rw [bigSep_singleton]; isplitl [H4] <;> iassumption
  icases R4 with ⟨%h4, HSI⟩
  ihave R0 := (pointsTo_read_all ({()} : Finset Unit) (fun _ => (c : Thread nD τ).loc main_v0) (fun _ => finalV0 m c) s') $$ [H0 HSI]
  · rw [bigSep_singleton]; isplitl [H0] <;> iassumption
  icases R0 with ⟨%h0, HSI⟩
  imodintro
  isplitr
  · ipureintro; exact ⟨h4 () (Finset.mem_singleton_self _), h0 () (Finset.mem_singleton_self _)⟩
  iexact HSI

/-- The one host line before the call writes only the re-laid bias row: every argument array is as launched. -/
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results

/-! ## The run -/

/-- What every final state satisfies: the result array is output a's rows above output b's, and the five argument
    arrays are as launched. -/
def Post : PUnit × MemSt nD τ sig (Elt F) → Prop := fun r => ∀ c : Dev nD,
  r.2.mem ((c : Thread nD τ).loc main_v0) = finalV0 m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

set_option backward.isDefEq.respectTransparency.types false in
/-- At the compiled mesh, for any float values, from any memory with zero counters: every weakly fair execution of
    @main terminates in a state satisfying `Post`. -/
theorem run_main : θ_run defs (onTc (τ := τ) (main (F := F))) ⟨m, fun _ => 0, ρ⟩ (Post m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m)
    (hsplit := hsplit m) (hpf := fun _ k => k.elim0)
    (X := fun _ => iprop(emp)) (Y := fun _ => iprop(emp)) (Z := Zin m) (Z' := Zout m)
    (hX := fun c => by rw [Pipeline.unscopedRestP_none]; exact (show _ ⊢ _ from by rw [← Pipeline.unscopedRestP_none]; exact hX m c))
    (hin := fun c => hin m c _ _)
    (hout := hout m) (htail := tail_run m) (QY := QY m) (hY := hY m)
    (hQ := fun s h c => ⟨(h c).2.2.2,
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      ((h c).1 3).trans (((dats m 0 c).arrAt_in 3 rfl _).trans ((A_eq m c 3).trans (V_arg2 m c))),
      ((h c).1 4).trans (((dats m 0 c).arrAt_in 4 rfl _).trans ((A_eq m c 4).trans (V_arg3 m c))),
      (h c).2.2.1.trans (V_arg4 m c)⟩)

end Cert.KernelIdeal.Hand

end
-- ==== Proof.Spec.lean ====
/-
  The function both programs compute, written once over the extended reals.

  For node features `attr` (4096 × 256), an aggregation matrix `mask` (4096 × 4096), two weight matrices
  `w` and `root` (256 × 256) and a bias row (256), entry (r, c) of the result is

      ∑ₖ mask[r, k] · (∑_d attr[k, d] · w[d, c])  +  ∑_d attr[r, d] · root[d, c]  +  bias[c].

  The inner sum is the message matrix `attr · w`; it is kept grouped (not distributed over k), and the three
  terms are added left to right. Both programs compute exactly this expression, so no algebraic law beyond
  rewriting the index sets is needed, and no finiteness of the inputs.
-/
import Idealize.ShloMosaic.PureOps.Ideal
import Idealize.ShloMosaic.Lib.ValueIdx

noncomputable section

open scoped BigOperators

namespace Cert.NodeConv

open Idealize.ShloMosaic Idealize.ShloMosaic.ValueIdx

/-- The message matrix `attr · w` at row `k`, column `c`. -/
def msg (attr : (⟨2, ![4096, 256]⟩ : Shape).Idx → EReal) (w : (⟨2, ![256, 256]⟩ : Shape).Idx → EReal)
    (k : Fin 4096) (c : Fin 256) : EReal :=
  ∑ d : Fin 256, attr (ix2 k d) * w (ix2 d c)

/-- Entry (r, c) of `mask · (attr · w) + attr · root + bias`. -/
def entry (attr : (⟨2, ![4096, 256]⟩ : Shape).Idx → EReal) (mask : (⟨2, ![4096, 4096]⟩ : Shape).Idx → EReal)
    (w root : (⟨2, ![256, 256]⟩ : Shape).Idx → EReal) (bias : (⟨1, ![256]⟩ : Shape).Idx → EReal)
    (r : Fin 4096) (c : Fin 256) : EReal :=
  (∑ k : Fin 4096, mask (ix2 r k) * msg attr w k c) + (∑ d : Fin 256, attr (ix2 r d) * root (ix2 d c)) + bias (ix1 c)

/-- The whole result array. -/
def result (attr : (⟨2, ![4096, 256]⟩ : Shape).Idx → EReal) (mask : (⟨2, ![4096, 4096]⟩ : Shape).Idx → EReal)
    (w root : (⟨2, ![256, 256]⟩ : Shape).Idx → EReal) (bias : (⟨1, ![256]⟩ : Shape).Idx → EReal) :
    (⟨2, ![4096, 256]⟩ : Shape).Idx → EReal :=
  fun i => entry attr mask w root bias (i 0) (i 1)

end Cert.NodeConv

end
-- ==== Proof.RefValue.lean ====
/-
  The reference program is the specification.

  The reference computes, for node features `attr` (4096 × 256), an aggregation matrix `mask` (4096 × 4096),
  weight matrices `w` and `root` (256 × 256) and a bias row (256), the array

      mask · (attr · w)  +  attr · root  +  bias,

  as three matrix products, one elementwise sum of two products, a row broadcast of the bias and a final
  elementwise sum. Over the extended reals a matrix product's entry (r, c) is the finite sum over the contracted
  axis of the products of the operands' entries, an elementwise sum is `+` entry by entry, and a broadcast along the
  row axis reads the bias at the column. Reading the reference's result at an index (r, c), outermost operation
  first, therefore gives

      (∑ₖ mask[r, k] · (∑_d attr[k, d] · w[d, c])  +  ∑_d attr[r, d] · root[d, c])  +  bias[c],

  with the inner sum kept grouped and the three terms added left to right: this is the specification's `entry`
  verbatim. No algebraic law is used (no distributivity, no reassociation, no commutation of sums), so nothing is
  asked of the inputs: the identity holds for infinite entries as well. The only work is to recognise each index
  the operations read as the index built from the coordinates.
-/
import proofs.«126694_g89275190215169_cont_sun_m_580_10_alg».proof.Proof.Gen.ReferenceIdeal.Read
import proofs.«126694_g89275190215169_cont_sun_m_580_10_alg».proof.Proof.Spec

noncomputable section

open scoped BigOperators

namespace Cert.NodeConv.RefValue

open Cert.ReferenceIdeal Cert.ReferenceIdeal.Read Idealize.ShloMosaic Idealize.ShloMosaic.ValueIdx

/-! ## The indices the operations read, as indices built from coordinates -/

/-- The first product `attr · w` reads `attr` at (row of the result, k). -/
theorem lidx_v0_eq (i : S4096x256.Idx) (k : Fin 256) : lidx_main_v0 i k = ix2 (n0 := 4096) (n1 := 256) (i 0) k :=
  funext fun a => Fin.ext (by match a with | ⟨0, _⟩ => rfl | ⟨1, _⟩ => rfl)

/-- The first product `attr · w` reads `w` at (k, column of the result). -/
theorem ridx_v0_eq (i : S4096x256.Idx) (k : Fin 256) : ridx_main_v0 i k = ix2 (n0 := 256) (n1 := 256) k (i 1) :=
  funext fun a => Fin.ext (by match a with | ⟨0, _⟩ => rfl | ⟨1, _⟩ => rfl)

/-- The product `mask · (attr · w)` reads `mask` at (row of the result, k). -/
theorem lidx_v1_eq (i : S4096x256.Idx) (k : Fin 4096) : lidx_main_v1 i k = ix2 (n0 := 4096) (n1 := 4096) (i 0) k :=
  funext fun a => Fin.ext (by match a with | ⟨0, _⟩ => rfl | ⟨1, _⟩ => rfl)

/-- The product `mask · (attr · w)` reads the message matrix at (k, column of the result). -/
theorem ridx_v1_eq (i : S4096x256.Idx) (k : Fin 4096) : ridx_main_v1 i k = ix2 (n0 := 4096) (n1 := 256) k (i 1) :=
  funext fun a => Fin.ext (by match a with | ⟨0, _⟩ => rfl | ⟨1, _⟩ => rfl)

/-- The product `attr · root` reads `attr` at (row of the result, d). -/
theorem lidx_v2_eq (i : S4096x256.Idx) (k : Fin 256) : lidx_main_v2 i k = ix2 (n0 := 4096) (n1 := 256) (i 0) k :=
  funext fun a => Fin.ext (by match a with | ⟨0, _⟩ => rfl | ⟨1, _⟩ => rfl)

/-- The product `attr · root` reads `root` at (d, column of the result). -/
theorem ridx_v2_eq (i : S4096x256.Idx) (k : Fin 256) : ridx_main_v2 i k = ix2 (n0 := 256) (n1 := 256) k (i 1) :=
  funext fun a => Fin.ext (by match a with | ⟨0, _⟩ => rfl | ⟨1, _⟩ => rfl)

/-- The two broadcasts of the bias (256 → 1 × 256 → 4096 × 256) read it at the column of the result. -/
theorem bias_idx_eq (i : S4096x256.Idx) : idx_main_v4 (idx_main_v5 i) = ix1 (n := 256) (i 1) :=
  funext fun a => Fin.ext (by match a with | ⟨0, _⟩ => rfl)

/-! ## The three terms -/

/-- The first product is the message matrix: entry (k, c) of `attr · w` is `∑_d attr[k, d] · w[d, c]`. -/
theorem message_read (x0 : (⟨S4096x256, .f32⟩ : BufTy).Contents (Elt Ideal))
    (x2 : (⟨S256x256, .f32⟩ : BufTy).Contents (Elt Ideal)) (k : Fin 4096) (c : Fin 256) :
    val_main_v0 (F := Ideal) x0 x2 (ix2 k c) = Cert.NodeConv.msg x0 x2 k c := by
  rw [val_main_v0_apply]
  unfold Cert.NodeConv.msg
  refine Finset.sum_congr rfl fun d _ => ?_
  -- the coordinates of the index built from `k` and `c` are `k` and `c`
  rw [lidx_v0_eq, ridx_v0_eq]

/-- Entry (r, c) of `mask · (attr · w)` is `∑ₖ mask[r, k] · msg[k, c]`, the inner sum kept grouped. -/
theorem aggregate_read (x0 : (⟨S4096x256, .f32⟩ : BufTy).Contents (Elt Ideal))
    (x1 : (⟨S4096x4096, .f32⟩ : BufTy).Contents (Elt Ideal))
    (x2 : (⟨S256x256, .f32⟩ : BufTy).Contents (Elt Ideal)) (i : S4096x256.Idx) :
    val_main_v1 (F := Ideal) x0 x1 x2 i
      = ∑ k : Fin 4096, x1 (ix2 (n0 := 4096) (n1 := 4096) (i 0) k) * Cert.NodeConv.msg x0 x2 k (i 1) := by
  rw [val_main_v1_apply]
  refine Finset.sum_congr rfl fun k _ => ?_
  rw [lidx_v1_eq, ridx_v1_eq]
  exact congrArg (fun t => x1 (ix2 (n0 := 4096) (n1 := 4096) (i 0) k) * t) (message_read x0 x2 k (i 1))

/-- Entry (r, c) of `attr · root` is `∑_d attr[r, d] · root[d, c]`. -/
theorem root_read (x0 : (⟨S4096x256, .f32⟩ : BufTy).Contents (Elt Ideal))
    (x3 : (⟨S256x256, .f32⟩ : BufTy).Contents (Elt Ideal)) (i : S4096x256.Idx) :
    val_main_v2 (F := Ideal) x0 x3 i
      = ∑ d : Fin 256, x0 (ix2 (n0 := 4096) (n1 := 256) (i 0) d) * x3 (ix2 (n0 := 256) (n1 := 256) d (i 1)) := by
  rw [val_main_v2_apply]
  refine Finset.sum_congr rfl fun d _ => ?_
  rw [lidx_v2_eq, ridx_v2_eq]

/-- The broadcast bias at (r, c) is `bias[c]`. -/
theorem bias_read (x4 : (⟨S256, .f32⟩ : BufTy).Contents (Elt Ideal)) (i : S4096x256.Idx) :
    val_main_v5 (F := Ideal) x4 i = x4 (ix1 (n := 256) (i 1)) := by
  rw [val_main_v5_apply, val_main_v4_apply, bias_idx_eq]

/-! ## The reference is the specification -/

/-- The reference's result, `mask · (attr · w) + attr · root + bias` computed operation by operation, is the
    specification's array: at every index (r, c) the two sides are the same expression
    `(∑ₖ mask[r, k] · (∑_d attr[k, d] · w[d, c]) + ∑_d attr[r, d] · root[d, c]) + bias[c]`, with the same grouping
    and the same order of the additions, so the equality needs no hypothesis on the inputs. -/
theorem reference_is_result (x0 : (⟨Cert.ReferenceIdeal.S4096x256, .f32⟩ : BufTy).Contents (Elt Ideal))
    (x1 : (⟨Cert.ReferenceIdeal.S4096x4096, .f32⟩ : BufTy).Contents (Elt Ideal))
    (x2 x3 : (⟨Cert.ReferenceIdeal.S256x256, .f32⟩ : BufTy).Contents (Elt Ideal))
    (x4 : (⟨Cert.ReferenceIdeal.S256, .f32⟩ : BufTy).Contents (Elt Ideal)) :
    Cert.ReferenceIdeal.Read.val_main_v6 (F := Ideal) x0 x1 x2 x3 x4 = Cert.NodeConv.result x0 x1 x2 x3 x4 := by
  funext i
  rw [val_main_v6_apply, val_main_v3_apply, aggregate_read, root_read, bias_read, Ideal.addf_def, Ideal.addf_def]
  rfl

end Cert.NodeConv.RefValue

end
-- ==== Proof.KernelPayload.lean ====
/-
  The kernel's arithmetic read at one entry, over the extended reals.

  Every value the kernel stores is a fixed expression of the blocks it has loaded: a matrix product into a zero
  accumulator, sums of such products, and a bias row repeated down the rows. Read at row p and column c these are
  finite sums of products of the blocks' entries:

      (x · y)[p, c] = ∑ₖ x[p, k] · y[k, c],      (u + v)[p, c] = u[p, c] + v[p, c],      (row b repeated)[p, c] = b[0, c].

  A cast of a block to its own shape changes nothing. The two host steps around the kernel are read the same way: the
  bias vector viewed as a one-row matrix has entry (0, c) equal to the vector's entry c, and two 2048-row halves laid
  one above the other have row r from the upper half when r < 2048 and row r − 2048 of the lower half otherwise.
-/
import proofs.«126694_g89275190215169_cont_sun_m_580_10_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.NodeConv.KernelPayload

open Cert.KernelIdeal Cert.KernelIdeal.Gen Idealize.ShloMosaic Idealize.ShloMosaic.ValueIdx

/-! ### The 4096×256 by 256×256 product -/

theorem lhs0_msg (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs1_msg (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs0_msg (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs1_msg (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A matrix product of a 4096×256 block `x` and a 256×256 block `y` accumulated into zero: entry (p, c) is
    `∑ₖ x[p, k] · y[k, c]`, the contraction's one axis re-indexed by its coordinate `k`. -/
theorem matmul_msg_apply (x : FVec Ideal S4096x256 .f32) (y : FVec Ideal S256x256 .f32) (p : Fin 4096) (c : Fin 256) :
    matmul dot_S4096x256_S256x256_S4096x256_1_0_0_1_n_n none x y (constant (F := Ideal) S4096x256 .f32 0x00000000#32) (ix2 p c)
      = ∑ k : Fin 256, x (ix2 p k) * y (ix2 k c) := by
  show FloatOps.matmul dot_S4096x256_S256x256_S4096x256_1_0_0_1_n_n none x y (constant (F := Ideal) S4096x256 .f32 0x00000000#32) (ix2 p c) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p c) ((contrEquiv1 dot_S4096x256_S256x256_S4096x256_1_0_0_1_n_n 256 rfl rfl).symm k) = ix2 p k := funext fun a => Fin.ext (by
    match a with
    | ⟨0, _⟩ => exact lhs0_msg _ _
    | ⟨1, _⟩ => exact (lhs1_msg _ _).trans hk)
  have er : dot_S4096x256_S256x256_S4096x256_1_0_0_1_n_n.rhsIdx (ix2 p c) ((contrEquiv1 dot_S4096x256_S256x256_S4096x256_1_0_0_1_n_n 256 rfl rfl).symm k) = ix2 k c := funext fun a => Fin.ext (by
    match a with
    | ⟨0, _⟩ => exact (rhs0_msg _ _).trans hk
    | ⟨1, _⟩ => exact rhs1_msg _ _)
  rw [el, er]

/-- The scratch holds the message matrix: entry (k, c) of `attr · w` is `∑_d attr[k, d] · w[d, c]`. The cast to the
    same shape is the identity. -/
theorem scratch_apply (v32 : Vec Ideal S4096x256 .f32) (v33 : Vec Ideal S256x256 .f32) (k : Fin 4096) (c : Fin 256) :
    k0_pay2 (F := Ideal) v32 v33 (ix2 k c) = ∑ d : Fin 256, v32 (ix2 k d) * v33 (ix2 d c) := by
  unfold k0_pay2
  rw [shapeCast_self]
  exact matmul_msg_apply v32 v33 k c

/-! ### The 512×4096 by 4096×256 product -/

theorem lhs0_agg (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs1_agg (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs0_agg (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs1_agg (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- A matrix product of a 512×4096 block `x` and a 4096×256 block `y` accumulated into zero: entry (p, c) is
    `∑ₖ x[p, k] · y[k, c]`, the contraction's one axis re-indexed by its coordinate `k`. -/
theorem matmul_agg_apply (x : FVec Ideal S512x4096 .f32) (y : FVec Ideal S4096x256 .f32) (p : Fin 512) (c : Fin 256) :
    matmul dot_S512x4096_S4096x256_S512x256_1_0_0_1_n_n none x y (constant (F := Ideal) S512x256 .f32 0x00000000#32) (ix2 p c)
      = ∑ k : Fin 4096, x (ix2 p k) * y (ix2 k c) := by
  show FloatOps.matmul dot_S512x4096_S4096x256_S512x256_1_0_0_1_n_n none x y (constant (F := Ideal) S512x256 .f32 0x00000000#32) (ix2 p c) = _
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p c) ((contrEquiv1 dot_S512x4096_S4096x256_S512x256_1_0_0_1_n_n 4096 rfl rfl).symm k) = ix2 p k := funext fun a => Fin.ext (by
    match a with
    | ⟨0, _⟩ => exact lhs0_agg _ _
    | ⟨1, _⟩ => exact (lhs1_agg _ _).trans hk)
  have er : dot_S512x4096_S4096x256_S512x256_1_0_0_1_n_n.rhsIdx (ix2 p c) ((contrEquiv1 dot_S512x4096_S4096x256_S512x256_1_0_0_1_n_n 4096 rfl rfl).symm k) = ix2 k c := funext fun a => Fin.ext (by
    match a with
    | ⟨0, _⟩ => exact (rhs0_agg _ _).trans hk
    | ⟨1, _⟩ => exact rhs1_agg _ _)
  rw [el, er]

/-! ### The 512×256 by 256×256 product -/

theorem lhs0_root (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs1_root (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs0_root (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs1_root (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A matrix product of a 512×256 block `x` and a 256×256 block `y` accumulated into zero: entry (p, c) is
    `∑ₖ x[p, k] · y[k, c]`, the contraction's one axis re-indexed by its coordinate `k`. -/
theorem matmul_root_apply (x : FVec Ideal S512x256 .f32) (y : FVec Ideal S256x256 .f32) (p : Fin 512) (c : Fin 256) :
    matmul dot_S512x256_S256x256_S512x256_1_0_0_1_n_n none x y (constant (F := Ideal) S512x256 .f32 0x00000000#32) (ix2 p c)
      = ∑ k : Fin 256, x (ix2 p k) * y (ix2 k c) := by
  show FloatOps.matmul dot_S512x256_S256x256_S512x256_1_0_0_1_n_n none x y (constant (F := Ideal) S512x256 .f32 0x00000000#32) (ix2 p c) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p c) ((contrEquiv1 dot_S512x256_S256x256_S512x256_1_0_0_1_n_n 256 rfl rfl).symm k) = ix2 p k := funext fun a => Fin.ext (by
    match a with
    | ⟨0, _⟩ => exact lhs0_root _ _
    | ⟨1, _⟩ => exact (lhs1_root _ _).trans hk)
  have er : dot_S512x256_S256x256_S512x256_1_0_0_1_n_n.rhsIdx (ix2 p c) ((contrEquiv1 dot_S512x256_S256x256_S512x256_1_0_0_1_n_n 256 rfl rfl).symm k) = ix2 k c := funext fun a => Fin.ext (by
    match a with
    | ⟨0, _⟩ => exact (rhs0_root _ _).trans hk
    | ⟨1, _⟩ => exact rhs1_root _ _)
  rw [el, er]

/-! ### The two output blocks -/

/-- The first output block: entry (p, c) is `∑ₖ mask[p, k] · msg[k, c] + ∑_d attr[p, d] · root[d, c] + bias[0, c]`, the three
    terms added left to right; the bias row is repeated down the 512 rows. -/
theorem outa_apply (v5 : Vec Ideal S512x256 .f32) (v10 : Vec Ideal S512x4096 .f32) (v11 : Vec Ideal S4096x256 .f32)
    (v13 : Vec Ideal S256x256 .f32) (v16 : Vec Ideal S1x256 .f32) (p : Fin 512) (c : Fin 256) :
    k0_pay3 (F := Ideal) v5 v10 v11 v13 v16 (ix2 p c)
      = (∑ k : Fin 4096, v10 (ix2 p k) * v11 (ix2 k c)) + (∑ d : Fin 256, v5 (ix2 p d) * v13 (ix2 d c)) + v16 (ix2 (0 : Fin 1) c) := by
  unfold k0_pay3
  show (matmul dot_S512x4096_S4096x256_S512x256_1_0_0_1_n_n none v10 v11 (constant (F := Ideal) S512x256 .f32 0x00000000#32) (ix2 p c)
        + matmul dot_S512x256_S256x256_S512x256_1_0_0_1_n_n none v5 v13 (constant (F := Ideal) S512x256 .f32 0x00000000#32) (ix2 p c))
        + broadcastTo S512x256 (shapeCast S1x256 v16 _) _ (ix2 p c) = _
  rw [matmul_agg_apply, matmul_root_apply, broadcastTo_1b_ab_apply, shapeCast_self]

/-- The second output block, the same expression of its own blocks: the sum of the two products, then the bias row
    repeated down the rows. -/
theorem outb_apply (v9 : Vec Ideal S512x256 .f32) (v21 : Vec Ideal S512x4096 .f32) (v22 : Vec Ideal S4096x256 .f32)
    (v24 : Vec Ideal S256x256 .f32) (v27 : Vec Ideal S1x256 .f32) (p : Fin 512) (c : Fin 256) :
    k0_pay1 (F := Ideal) (k0_pay4 (F := Ideal) v9 v21 v22 v24) v27 (ix2 p c)
      = (∑ k : Fin 4096, v21 (ix2 p k) * v22 (ix2 k c)) + (∑ d : Fin 256, v9 (ix2 p d) * v24 (ix2 d c)) + v27 (ix2 (0 : Fin 1) c) := by
  unfold k0_pay1 k0_pay4
  show (matmul dot_S512x4096_S4096x256_S512x256_1_0_0_1_n_n none v21 v22 (constant (F := Ideal) S512x256 .f32 0x00000000#32) (ix2 p c)
        + matmul dot_S512x256_S256x256_S512x256_1_0_0_1_n_n none v9 v24 (constant (F := Ideal) S512x256 .f32 0x00000000#32) (ix2 p c))
        + broadcastTo S512x256 (shapeCast S1x256 v27 _) _ (ix2 p c) = _
  rw [matmul_agg_apply, matmul_root_apply, broadcastTo_1b_ab_apply, shapeCast_self]

/-! ### The host steps around the kernel -/

/-- Two 2048-row halves laid one above the other: row r of the result is row r of the upper half when r < 2048, and
    row r − 2048 of the lower half otherwise. -/
theorem concat_apply {α : Type} (a b : S2048x256.Idx → α)
    (h : Shape.Concatenates [S2048x256, S2048x256] S4096x256 0) (r : Fin 4096) (c : Fin 256) :
    concatenate S4096x256 0 [⟨S2048x256, a⟩, ⟨S2048x256, b⟩] h (ix2 r c)
      = if hr : r.val < 2048 then a (ix2 ⟨r.val, hr⟩ c) else b (ix2 ⟨r.val - 2048, by omega⟩ c) := by
  split
  · next hr =>
    exact concatenate_pair_apply_left 0 a b h (ix2 r c) rfl (ix2 ⟨r.val, hr⟩ c)
      (fun ax => match ax with | ⟨0, _⟩ => rfl | ⟨1, _⟩ => rfl)
  · next hr =>
    exact concatenate_pair_apply_right 0 a b h (ix2 r c) rfl rfl (ix2 ⟨r.val - 2048, by omega⟩ c)
      (fun ax hax => match ax with | ⟨0, _⟩ => absurd rfl hax | ⟨1, _⟩ => rfl)
      (by show r.val - 2048 + 2048 = r.val; omega)

/-- The bias vector viewed as a one-row matrix: entry (0, c) of the row is entry c of the vector. -/
theorem bias_row_apply {α : Type} (x : S256.Idx → α) (h : S256.ShapeCasts S1x256) (c : Fin 256) :
    shapeCast S1x256 x h (ix2 (0 : Fin 1) c) = x (ix1 c) :=
  shapeCast_a_1a_apply x h 0 c

end Cert.NodeConv.KernelPayload

end
-- ==== Proof.IdealBlocks.lean ====
/-
  What each block the body reads holds, entry by entry, and what the two output blocks therefore are.

  The call finds the five argument arrays as launched, but for the bias vector, which the one step before the call
  has re-laid as a 1 × 256 row. Window 0 (attr), window 3 (w), window 4 (root) and window 5 (the bias row) are the whole
  arrays at every grid point; window 1 at point t is rows 512 t … 512 t + 511 of mask, window 2 at point t rows
  512 (t + 4) … 512 (t + 4) + 511 of mask. Inside the body the two 512-row slices of attr are the rows with the same
  numbers. So at point t the first output block is rows 512 t … of

      mask · (attr · w) + attr · root + bias

  and the second output block rows 2048 + 512 t … of the same matrix.
-/
import proofs.«126694_g89275190215169_cont_sun_m_580_10_alg».proof.Proof.IdealBody
import proofs.«126694_g89275190215169_cont_sun_m_580_10_alg».proof.Proof.KernelPayload
import proofs.«126694_g89275190215169_cont_sun_m_580_10_alg».proof.Proof.Spec
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (c : Dev nD)

/-! ## The arrays as the call finds them -/

/-- The call finds attr as launched. -/
theorem V_arg0 : (V (F := Ideal) m c main_arg0 : S4096x256.Idx → EReal) = m ((c : Thread nD τ).loc main_arg0) := by
  dsimp only [V, V0, hostOps0]
  simp only [List.flatten_cons, List.flatten_nil, List.append_nil]
  after_results
/-- The call finds mask as launched. -/
theorem V_arg1 : (V (F := Ideal) m c main_arg1 : S4096x4096.Idx → EReal) = m ((c : Thread nD τ).loc main_arg1) := by
  dsimp only [V, V0, hostOps0]
  simp only [List.flatten_cons, List.flatten_nil, List.append_nil]
  after_results
/-- The call finds w as launched. -/
theorem V_arg2 : (V (F := Ideal) m c main_arg2 : S256x256.Idx → EReal) = m ((c : Thread nD τ).loc main_arg2) := by
  dsimp only [V, V0, hostOps0]
  simp only [List.flatten_cons, List.flatten_nil, List.append_nil]
  after_results
/-- The call finds root as launched. -/
theorem V_arg3 : (V (F := Ideal) m c main_arg3 : S256x256.Idx → EReal) = m ((c : Thread nD τ).loc main_arg3) := by
  dsimp only [V, V0, hostOps0]
  simp only [List.flatten_cons, List.flatten_nil, List.append_nil]
  after_results

/-- The call finds the bias vector re-laid as a 1 × 256 row: entry (0, q) of the row is entry q of the vector. -/
theorem V_bias_row (q : Fin 256) : (V (F := Ideal) m c main_call0_v0 : S1x256.Idx → EReal) (ix2 (0 : Fin 1) q)
    = (m ((c : Thread nD τ).loc main_arg4) : S256.Idx → EReal) (ix1 q) := by
  have e : (V (F := Ideal) m c main_call0_v0 : S1x256.Idx → EReal)
      = shapeCast S1x256 (m ((c : Thread nD τ).loc main_arg4) : S256.Idx → EReal) Facts₀.shapeCasts_S256_S1x256 := by
    dsimp only [V, V0, hostOps0]
    simp only [List.flatten_cons, List.flatten_nil, List.append_nil]
    after_results
    rfl
  rw [e]
  exact Cert.NodeConv.KernelPayload.bias_row_apply _ _ q

/-! ## The input windows' blocks -/

/-- Where each input window's block sits at point `t`, in blocks: windows 0, 3, 4, 5 never move, window 1 is at block row
    `t` and window 2 at block row `t + 4`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val + 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Window 0's block is the whole of attr at every point. -/
theorem iblk0_apply (t : Fin cfg0.N) (k : Fin 4096) (d : Fin 256) :
    (iblk (F := Ideal) m c 0 t : Vec Ideal S4096x256 .f32) (ix2 k d)
      = (m ((c : Thread nD τ).loc main_arg0) : S4096x256.Idx → EReal) (ix2 k d) := by
  obtain ⟨e0, e1, -⟩ := idx_facts t
  unfold iblk
  rw [View.read_apply]
  show (V (F := Ideal) m c main_arg0 : S4096x256.Idx → EReal) _ = _
  rw [V_arg0]
  congr 1
  funext a
  apply Fin.ext
  match a with
  | ⟨0, _⟩ => show win0_0.index t (0 : Fin 2) * 4096 + 1 * k.val = k.val; rw [e0]; omega
  | ⟨1, _⟩ => show win0_0.index t (1 : Fin 2) * 256 + 1 * d.val = d.val; rw [e1]; omega

/-- Window 1's block at point `t` is rows `512 t … 512 t + 511` of mask. -/
theorem iblk1_apply (t : Fin cfg0.N) (p : Fin 512) (k : Fin 4096) (r : Fin 4096) (hr : r.val = 512 * t.val + p.val) :
    (iblk (F := Ideal) m c 1 t : Vec Ideal S512x4096 .f32) (ix2 p k)
      = (m ((c : Thread nD τ).loc main_arg1) : S4096x4096.Idx → EReal) (ix2 r k) := by
  obtain ⟨-, -, e0, e1, -⟩ := idx_facts t
  unfold iblk
  rw [View.read_apply]
  show (V (F := Ideal) m c main_arg1 : S4096x4096.Idx → EReal) _ = _
  rw [V_arg1]
  congr 1
  funext a
  apply Fin.ext
  match a with
  | ⟨0, _⟩ => show win0_1.index t (0 : Fin 2) * 512 + 1 * p.val = r.val; rw [e0, hr]; omega
  | ⟨1, _⟩ => show win0_1.index t (1 : Fin 2) * 4096 + 1 * k.val = k.val; rw [e1]; omega

/-- Window 2's block at point `t` is rows `512 (t + 4) … 512 (t + 4) + 511` of mask. -/
theorem iblk2_apply (t : Fin cfg0.N) (p : Fin 512) (k : Fin 4096) (r : Fin 4096) (hr : r.val = 512 * (t.val + 4) + p.val) :
    (iblk (F := Ideal) m c 2 t : Vec Ideal S512x4096 .f32) (ix2 p k)
      = (m ((c : Thread nD τ).loc main_arg1) : S4096x4096.Idx → EReal) (ix2 r k) := by
  obtain ⟨-, -, -, -, e0, e1, -⟩ := idx_facts t
  unfold iblk
  rw [View.read_apply]
  show (V (F := Ideal) m c main_arg1 : S4096x4096.Idx → EReal) _ = _
  rw [V_arg1]
  congr 1
  funext a
  apply Fin.ext
  match a with
  | ⟨0, _⟩ => show win0_2.index t (0 : Fin 2) * 512 + 1 * p.val = r.val; rw [e0, hr]; omega
  | ⟨1, _⟩ => show win0_2.index t (1 : Fin 2) * 4096 + 1 * k.val = k.val; rw [e1]; omega

/-- Window 3's block is the whole of w at every point. -/
theorem iblk3_apply (t : Fin cfg0.N) (d : Fin 256) (q : Fin 256) :
    (iblk (F := Ideal) m c 3 t : Vec Ideal S256x256 .f32) (ix2 d q)
      = (m ((c : Thread nD τ).loc main_arg2) : S256x256.Idx → EReal) (ix2 d q) := by
  obtain ⟨-, -, -, -, -, -, e0, e1, -⟩ := idx_facts t
  unfold iblk
  rw [View.read_apply]
  show (V (F := Ideal) m c main_arg2 : S256x256.Idx → EReal) _ = _
  rw [V_arg2]
  congr 1
  funext a
  apply Fin.ext
  match a with
  | ⟨0, _⟩ => show win0_3.index t (0 : Fin 2) * 256 + 1 * d.val = d.val; rw [e0]; omega
  | ⟨1, _⟩ => show win0_3.index t (1 : Fin 2) * 256 + 1 * q.val = q.val; rw [e1]; omega

/-- Window 4's block is the whole of root at every point. -/
theorem iblk4_apply (t : Fin cfg0.N) (d : Fin 256) (q : Fin 256) :
    (iblk (F := Ideal) m c 4 t : Vec Ideal S256x256 .f32) (ix2 d q)
      = (m ((c : Thread nD τ).loc main_arg3) : S256x256.Idx → EReal) (ix2 d q) := by
  obtain ⟨-, -, -, -, -, -, -, -, e0, e1, -⟩ := idx_facts t
  unfold iblk
  rw [View.read_apply]
  show (V (F := Ideal) m c main_arg3 : S256x256.Idx → EReal) _ = _
  rw [V_arg3]
  congr 1
  funext a
  apply Fin.ext
  match a with
  | ⟨0, _⟩ => show win0_4.index t (0 : Fin 2) * 256 + 1 * d.val = d.val; rw [e0]; omega
  | ⟨1, _⟩ => show win0_4.index t (1 : Fin 2) * 256 + 1 * q.val = q.val; rw [e1]; omega

/-- Window 5's block is the bias row at every point: entry (0, q) is entry q of the bias vector. -/
theorem iblk5_apply (t : Fin cfg0.N) (q : Fin 256) :
    (iblk (F := Ideal) m c 5 t : Vec Ideal S1x256 .f32) (ix2 (0 : Fin 1) q)
      = (m ((c : Thread nD τ).loc main_arg4) : S256.Idx → EReal) (ix1 q) := by
  obtain ⟨-, -, -, -, -, -, -, -, -, -, e0, e1⟩ := idx_facts t
  unfold iblk
  rw [View.read_apply]
  show (V (F := Ideal) m c main_call0_v0 : S1x256.Idx → EReal) _ = _
  refine Eq.trans (congrArg (V (F := Ideal) m c main_call0_v0 : S1x256.Idx → EReal) ?_) (V_bias_row m c q)
  funext a
  apply Fin.ext
  match a with
  | ⟨0, _⟩ => show win0_5.index t (0 : Fin 2) * 1 + 1 * 0 = 0; rw [e0]
  | ⟨1, _⟩ => show win0_5.index t (1 : Fin 2) * 256 + 1 * q.val = q.val; rw [e1]; omega

/-! ## The two slices of attr inside the body -/

/-- A grid point's one coordinate is its number. -/
theorem coords_val (t : Fin cfg0.N) : ((grid0.coords t) 0).val = t.val := by
  rcases fin_N0 t with rfl | rfl | rfl | rfl <;> decide

/-- The first slice of attr at point `t` is rows `512 t … 512 t + 511`. -/
theorem attrA_apply (t : Fin cfg0.N) (X : Vec Ideal S4096x256 .f32) (p : Fin 512) (d : Fin 256) (r : Fin 4096)
    (hr : r.val = 512 * t.val + p.val) :
    attrA (F := Ideal) (grid0.coords t) X (ix2 p d) = X (ix2 r d) := by
  unfold attrA
  show X _ = X _
  congr 1
  funext a
  apply Fin.ext
  have ht := coords_val t
  match a with
  | ⟨0, _⟩ =>
    show k0_off1 (grid0.coords t) 0 + 1 * p.val = r.val
    rw [k0_off1_eq]
    show 512 * ((grid0.coords t) 0).val + 1 * p.val = r.val
    rw [ht, hr]; omega
  | ⟨1, _⟩ =>
    show k0_off1 (grid0.coords t) 1 + 1 * d.val = d.val
    rw [k0_off1_eq]
    show 0 + 1 * d.val = d.val
    omega

/-- The second slice of attr at point `t` is rows `512 (t + 4) … 512 (t + 4) + 511`. -/
theorem attrB_apply (t : Fin cfg0.N) (X : Vec Ideal S4096x256 .f32) (p : Fin 512) (d : Fin 256) (r : Fin 4096)
    (hr : r.val = 512 * (t.val + 4) + p.val) :
    attrB (F := Ideal) (grid0.coords t) X (ix2 p d) = X (ix2 r d) := by
  unfold attrB
  show X _ = X _
  congr 1
  funext a
  apply Fin.ext
  have ht := coords_val t
  match a with
  | ⟨0, _⟩ =>
    show k0_off2 (grid0.coords t) 0 + 1 * p.val = r.val
    rw [k0_off2_eq]
    show 512 * ((grid0.coords t) 0).val + 2048 + 1 * p.val = r.val
    rw [ht, hr]; omega
  | ⟨1, _⟩ =>
    show k0_off2 (grid0.coords t) 1 + 1 * d.val = d.val
    rw [k0_off2_eq]
    show 0 + 1 * d.val = d.val
    omega

/-! ## The scratch and the two output blocks -/

/-- The scratch holds the message matrix of the launched arrays: entry (k, q) is `∑_d attr[k, d] · w[d, q]`. -/
theorem scr_apply (k : Fin 4096) (q : Fin 256) :
    scr (F := Ideal) m c (ix2 k q)
      = Cert.NodeConv.msg (m ((c : Thread nD τ).loc main_arg0)) (m ((c : Thread nD τ).loc main_arg2)) k q := by
  unfold scr msgOf Cert.NodeConv.msg
  refine (Cert.NodeConv.KernelPayload.scratch_apply _ _ k q).trans ?_
  exact Finset.sum_congr rfl fun d _ => congrArg₂ (· * ·) (iblk0_apply m c t0_0 k d) (iblk3_apply m c t0_0 d q)

/-- Row `512 t + p` is a row of the 4096-row result. -/
theorem rowA_lt (t : Fin cfg0.N) (p : Fin 512) : 512 * t.val + p.val < 4096 := by
  have hN : cfg0.N = 4 := N_0
  have := t.isLt; have := p.isLt; omega
/-- Row `2048 + 512 t + p` is a row of the 4096-row result. -/
theorem rowB_lt (t : Fin cfg0.N) (p : Fin 512) : 2048 + 512 * t.val + p.val < 4096 := by
  have hN : cfg0.N = 4 := N_0
  have := t.isLt; have := p.isLt; omega

/-- The first output block at point `t` is rows `512 t … 512 t + 511` of `mask · (attr · w) + attr · root + bias`: its row p pairs
    row `512 t + p` of mask with the message matrix and row `512 t + p` of attr with root. -/
theorem blockA_entry (t : Fin cfg0.N) (p : Fin 512) (q : Fin 256) :
    blockA (F := Ideal) m c t (ix2 p q)
      = Cert.NodeConv.entry (m ((c : Thread nD τ).loc main_arg0)) (m ((c : Thread nD τ).loc main_arg1))
          (m ((c : Thread nD τ).loc main_arg2)) (m ((c : Thread nD τ).loc main_arg3)) (m ((c : Thread nD τ).loc main_arg4))
          ⟨512 * t.val + p.val, rowA_lt t p⟩ q := by
  unfold blockA outA Cert.NodeConv.entry
  refine (Cert.NodeConv.KernelPayload.outa_apply _ _ _ _ _ p q).trans ?_
  refine congrArg₂ (· + ·) (congrArg₂ (· + ·) ?_ ?_) (iblk5_apply m c t q)
  · exact Finset.sum_congr rfl fun k _ =>
      congrArg₂ (· * ·) (iblk1_apply m c t p k ⟨512 * t.val + p.val, rowA_lt t p⟩ rfl) (scr_apply m c k q)
  · exact Finset.sum_congr rfl fun d _ =>
      congrArg₂ (· * ·) ((attrA_apply t _ p d ⟨512 * t.val + p.val, rowA_lt t p⟩ rfl).trans (iblk0_apply m c t _ d))
        (iblk4_apply m c t d q)

/-- The second output block at point `t` is rows `2048 + 512 t … 2048 + 512 t + 511` of the same matrix: its row p pairs
    row `512 (t + 4) + p` of mask with the message matrix and the same row of attr with root. -/
theorem blockB_entry (t : Fin cfg0.N) (p : Fin 512) (q : Fin 256) :
    blockB (F := Ideal) m c t (ix2 p q)
      = Cert.NodeConv.entry (m ((c : Thread nD τ).loc main_arg0)) (m ((c : Thread nD τ).loc main_arg1))
          (m ((c : Thread nD τ).loc main_arg2)) (m ((c : Thread nD τ).loc main_arg3)) (m ((c : Thread nD τ).loc main_arg4))
          ⟨2048 + 512 * t.val + p.val, rowB_lt t p⟩ q := by
  unfold blockB outB Cert.NodeConv.entry
  refine (Cert.NodeConv.KernelPayload.outb_apply _ _ _ _ _ p q).trans ?_
  refine congrArg₂ (· + ·) (congrArg₂ (· + ·) ?_ ?_) (iblk5_apply m c t q)
  · exact Finset.sum_congr rfl fun k _ =>
      congrArg₂ (· * ·) (iblk2_apply m c t p k ⟨2048 + 512 * t.val + p.val, rowB_lt t p⟩ (by show 2048 + 512 * t.val + p.val = _; omega)) (scr_apply m c k q)
  · exact Finset.sum_congr rfl fun d _ =>
      congrArg₂ (· * ·) ((attrB_apply t _ p d ⟨2048 + 512 * t.val + p.val, rowB_lt t p⟩ (by show 2048 + 512 * t.val + p.val = _; omega)).trans (iblk0_apply m c t _ d))
        (iblk4_apply m c t d q)

end Cert.KernelIdeal.HandValue

end
-- ==== Proof.IdealArrays.lean ====
/-
  From the blocks the grid points write to the two output arrays, and from the two arrays to the result.

  The call runs over four grid points. At point t each of its two output windows writes one block of 512 rows and all
  256 columns back to its own array of 2048 rows: block index (t, 0), so the element at row p and column q of the
  block lands at row 512·t + p, column q of the array. Every point writes back, and the four row ranges
  [0, 512), [512, 1024), [1024, 1536), [1536, 2048) are disjoint and fill the 2048 rows: row r belongs to the block
  of point r / 512 and to no other. So when the block a point leaves in the first window is the specification's
  entry at rows 512·t + p of the whole result, the first array ends holding rows 0 … 2047 of the result; and when
  the second window's block is the entry at rows 2048 + 512·t + p, the second array ends holding rows 2048 … 4095.
  The program then lays the first array above the second: row r of the concatenation is row r of the first array
  for r < 2048 and row r − 2048 of the second otherwise, which in both cases is row r of the result. Nothing here
  is arithmetic on the entries: the entry function is carried along unopened.
-/
import proofs.«126694_g89275190215169_cont_sun_m_580_10_alg».proof.Proof.IdealFinal
import proofs.«126694_g89275190215169_cont_sun_m_580_10_alg».proof.Proof.KernelPayload
import proofs.«126694_g89275190215169_cont_sun_m_580_10_alg».proof.Proof.Spec
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Hand Idealize.ShloMosaic.ValueIdx

variable (m : (ℓ : Loc nD τ sig) → Buf (Elt Ideal) ℓ)

/-- Entry (r, q) of the specification's result, of the five argument arrays as core `c` holds them at launch:
    node features, aggregation matrix, the two weight matrices and the bias. -/
abbrev entryOf (c : Dev nD) (r : Fin 4096) (q : Fin 256) : EReal :=
  Cert.NodeConv.entry (m ((c : Thread nD τ).loc main_arg0)) (m ((c : Thread nD τ).loc main_arg1))
    (m ((c : Thread nD τ).loc main_arg2)) (m ((c : Thread nD τ).loc main_arg3)) (m ((c : Thread nD τ).loc main_arg4)) r q

/-- The entry depends on the row and the column only through their values. -/
theorem entryOf_congr (c : Dev nD) {r r' : Fin 4096} {q q' : Fin 256} (hr : r.val = r'.val) (hq : q.val = q'.val) :
    entryOf m c r q = entryOf m c r' q' := by
  obtain rfl : r = r' := Fin.ext hr
  obtain rfl : q = q' := Fin.ext hq
  rfl

/-! ## The first output array: rows 0 … 2047 of the result -/

/-- What the first array should end holding: at (r, q), the result's entry at the same row and column. -/
abbrev GA (c : Dev nD) : S2048x256.Idx → EReal :=
  fun j => entryOf m c ⟨(j 0).val, by have := idx2_lt0 (n0 := 2048) (n1 := 256) j; omega⟩ (j 1)

/-- The first window's block index at point `t` is (t, 0), decided over the four points. -/
theorem idx_factsA : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- The block hypothesis read at any index of the block (an index is the pair of its coordinates). -/
theorem blockA_at (c : Dev nD)
    (hA : ∀ (t : Fin cfg0.N) (p : Fin 512) (q : Fin 256) (h : 512 * t.val + p.val < 4096),
      blockA (F := Ideal) m c t (ix2 p q) = entryOf m c ⟨512 * t.val + p.val, h⟩ q)
    (t : Fin cfg0.N) (y : S512x256.Idx) (h : 512 * t.val + (y 0).val < 4096) :
    blockA (F := Ideal) m c t y = entryOf m c ⟨512 * t.val + (y 0).val, h⟩ (y 1) :=
  (congrArg (blockA (F := Ideal) m c t) (eq_ix2 (n0 := 512) (n1 := 256) y)).trans (hA t (y 0) (y 1) h)

/-- WHAT POINT `t` WRITES BACK to the first array is block `t` of the result's rows 0 … 2047: the window cuts nothing
    (every block lies inside the array), so what is written is the whole block the body left, and its element (p, q)
    sits in the array at row 512·t + p, column q. -/
theorem flushedA_eq (c : Dev nD)
    (hA : ∀ (t : Fin cfg0.N) (p : Fin 512) (q : Fin 256) (h : 512 * t.val + p.val < 4096),
      blockA (F := Ideal) m c t (ix2 p q) = entryOf m c ⟨512 * t.val + p.val, h⟩ q)
    (t : Fin cfg0.N) :
    (dats m 0 c).flushed 6 t = ((cfg0.win 6).blk t).view.read (Elt Ideal) (GA m c) := by
  show (cfg0.win 6).cut (grid0.coords t) ((dats m 0 c).after 6 t) = _
  rw [after6]
  obtain ⟨e0, e1⟩ := idx_factsA t
  have hN : t.val < 4 := lt_of_lt_of_eq t.isLt N_0
  funext y
  have hy0 : (y 0).val < 512 := (y 0).isLt
  have hy1 : (y 1).val < 256 := (y 1).isLt
  refine (blockA_at m c hA t ((cfg0.win 6).xinj (grid0.coords t) y) (by show 512 * t.val + (y 0).val < 4096; omega)).trans ?_
  show entryOf m c ⟨512 * t.val + (y 0).val, _⟩ ⟨(y 1).val, _⟩ = GA m c (((cfg0.win 6).blk t).view.emb y)
  refine entryOf_congr m c ?_ ?_
  · show 512 * t.val + (y 0).val = win0_6.index t (0 : Fin 2) * 512 + 1 * (y 0).val
    omega
  · show (y 1).val = win0_6.index t (1 : Fin 2) * 256 + 1 * (y 1).val
    omega

/-- An index of the first array is in point `t`'s block iff each coordinate is in the block's range on its axis. -/
theorem mem_blkA (t : Fin cfg0.N) (i : S2048x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_call0_v1_0).slice (win0_6.rect t)).set ↔ _
  rw [View.set_slice_whole, Rect.mem_set_unit]
  exact Iff.rfl

/-- THE FOUR BLOCKS COVER THE ARRAY: row r lies in the block of point r / 512 (rows 512·(r / 512) … 512·(r / 512) + 511),
    which is one of the four points because r < 2048; the block spans all 256 columns; and every point writes back. -/
theorem coverA (i : S2048x256.Idx) :
    ∃ t : Fin cfg0.N, (cfg0.win 6).flush t = true ∧ i ∈ ((cfg0.win 6).blk t).view.set := by
  have hi0 : (i 0).val < 2048 := (i 0).isLt
  have hi1 : (i 1).val < 256 := (i 1).isLt
  have hN : cfg0.N = 4 := N_0
  let t : Fin cfg0.N := ⟨(i 0).val / 512, by rw [hN]; omega⟩
  have ht : t.val = (i 0).val / 512 := rfl
  obtain ⟨e0, e1⟩ := idx_factsA t
  refine ⟨t, flush0_6 t, ?_⟩
  rw [mem_blkA]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- THE FIRST ARRAY after the last write-back holds rows 0 … 2047 of the result: every index is covered by a block,
    and every block written is the result's. -/
theorem finalA_of (c : Dev nD)
    (hA : ∀ (t : Fin cfg0.N) (p : Fin 512) (q : Fin 256) (h : 512 * t.val + p.val < 4096),
      blockA (F := Ideal) m c t (ix2 p q) = entryOf m c ⟨512 * t.val + p.val, h⟩ q) :
    finalA (F := Ideal) m c
      = fun j => entryOf m c ⟨(j 0).val, by have := idx2_lt0 (n0 := 2048) (n1 := 256) j; omega⟩ (j 1) :=
  (dats m 0 c).arrAt_eq_of_cover 6 (GA m c) (fun t _ => flushedA_eq m c hA t) coverA

/-! ## The second output array: rows 2048 … 4095 of the result -/

/-- What the second array should end holding: at (r, q), the result's entry at row 2048 + r and the same column. -/
abbrev GB (c : Dev nD) : S2048x256.Idx → EReal :=
  fun j => entryOf m c ⟨2048 + (j 0).val, by have := idx2_lt0 (n0 := 2048) (n1 := 256) j; omega⟩ (j 1)

/-- The second window's block index at point `t` is (t, 0), decided over the four points. -/
theorem idx_factsB : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The block hypothesis read at any index of the block (an index is the pair of its coordinates). -/
theorem blockB_at (c : Dev nD)
    (hB : ∀ (t : Fin cfg0.N) (p : Fin 512) (q : Fin 256) (h : 2048 + 512 * t.val + p.val < 4096),
      blockB (F := Ideal) m c t (ix2 p q) = entryOf m c ⟨2048 + 512 * t.val + p.val, h⟩ q)
    (t : Fin cfg0.N) (y : S512x256.Idx) (h : 2048 + 512 * t.val + (y 0).val < 4096) :
    blockB (F := Ideal) m c t y = entryOf m c ⟨2048 + 512 * t.val + (y 0).val, h⟩ (y 1) :=
  (congrArg (blockB (F := Ideal) m c t) (eq_ix2 (n0 := 512) (n1 := 256) y)).trans (hB t (y 0) (y 1) h)

/-- WHAT POINT `t` WRITES BACK to the second array is block `t` of the result's rows 2048 … 4095: the whole block the
    body left, its element (p, q) at row 512·t + p, column q of the array, which is row 2048 + 512·t + p of the result. -/
theorem flushedB_eq (c : Dev nD)
    (hB : ∀ (t : Fin cfg0.N) (p : Fin 512) (q : Fin 256) (h : 2048 + 512 * t.val + p.val < 4096),
      blockB (F := Ideal) m c t (ix2 p q) = entryOf m c ⟨2048 + 512 * t.val + p.val, h⟩ q)
    (t : Fin cfg0.N) :
    (dats m 0 c).flushed 7 t = ((cfg0.win 7).blk t).view.read (Elt Ideal) (GB m c) := by
  show (cfg0.win 7).cut (grid0.coords t) ((dats m 0 c).after 7 t) = _
  rw [after7]
  obtain ⟨e0, e1⟩ := idx_factsB t
  have hN : t.val < 4 := lt_of_lt_of_eq t.isLt N_0
  funext y
  have hy0 : (y 0).val < 512 := (y 0).isLt
  have hy1 : (y 1).val < 256 := (y 1).isLt
  refine (blockB_at m c hB t ((cfg0.win 7).xinj (grid0.coords t) y) (by show 2048 + 512 * t.val + (y 0).val < 4096; omega)).trans ?_
  show entryOf m c ⟨2048 + 512 * t.val + (y 0).val, _⟩ ⟨(y 1).val, _⟩ = GB m c (((cfg0.win 7).blk t).view.emb y)
  refine entryOf_congr m c ?_ ?_
  · show 2048 + 512 * t.val + (y 0).val = 2048 + (win0_7.index t (0 : Fin 2) * 512 + 1 * (y 0).val)
    omega
  · show (y 1).val = win0_7.index t (1 : Fin 2) * 256 + 1 * (y 1).val
    omega

/-- An index of the second array is in point `t`'s block iff each coordinate is in the block's range on its axis. -/
theorem mem_blkB (t : Fin cfg0.N) (i : S2048x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_call0_v1_1).slice (win0_7.rect t)).set ↔ _
  rw [View.set_slice_whole, Rect.mem_set_unit]
  exact Iff.rfl

/-- THE FOUR BLOCKS COVER THE SECOND ARRAY, as they do the first: row r lies in the block of point r / 512. -/
theorem coverB (i : S2048x256.Idx) :
    ∃ t : Fin cfg0.N, (cfg0.win 7).flush t = true ∧ i ∈ ((cfg0.win 7).blk t).view.set := by
  have hi0 : (i 0).val < 2048 := (i 0).isLt
  have hi1 : (i 1).val < 256 := (i 1).isLt
  have hN : cfg0.N = 4 := N_0
  let t : Fin cfg0.N := ⟨(i 0).val / 512, by rw [hN]; omega⟩
  have ht : t.val = (i 0).val / 512 := rfl
  obtain ⟨e0, e1⟩ := idx_factsB t
  refine ⟨t, flush0_7 t, ?_⟩
  rw [mem_blkB]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- THE SECOND ARRAY after the last write-back holds rows 2048 … 4095 of the result. -/
theorem finalB_of (c : Dev nD)
    (hB : ∀ (t : Fin cfg0.N) (p : Fin 512) (q : Fin 256) (h : 2048 + 512 * t.val + p.val < 4096),
      blockB (F := Ideal) m c t (ix2 p q) = entryOf m c ⟨2048 + 512 * t.val + p.val, h⟩ q) :
    finalB (F := Ideal) m c
      = fun j => entryOf m c ⟨2048 + (j 0).val, by have := idx2_lt0 (n0 := 2048) (n1 := 256) j; omega⟩ (j 1) :=
  (dats m 0 c).arrAt_eq_of_cover 7 (GB m c) (fun t _ => flushedB_eq m c hB t) coverB

/-! ## The concatenation is the whole result -/

/-- Entry (r, q) of the first array laid above the second: for r < 2048 it is the first array's row r, for r ≥ 2048 the
    second array's row r − 2048, and both are row r of the result. -/
theorem finalV0_apply (c : Dev nD)
    (hA : ∀ (t : Fin cfg0.N) (p : Fin 512) (q : Fin 256) (h : 512 * t.val + p.val < 4096),
      blockA (F := Ideal) m c t (ix2 p q) = entryOf m c ⟨512 * t.val + p.val, h⟩ q)
    (hB : ∀ (t : Fin cfg0.N) (p : Fin 512) (q : Fin 256) (h : 2048 + 512 * t.val + p.val < 4096),
      blockB (F := Ideal) m c t (ix2 p q) = entryOf m c ⟨2048 + 512 * t.val + p.val, h⟩ q)
    (r : Fin 4096) (q : Fin 256) :
    finalV0 (F := Ideal) m c (ix2 r q) = entryOf m c r q := by
  unfold finalV0
  rw [Cert.NodeConv.KernelPayload.concat_apply, finalA_of m c hA, finalB_of m c hB]
  have hr4 : r.val < 4096 := r.isLt
  split
  · exact entryOf_congr m c rfl rfl
  · next hr => exact entryOf_congr m c (by show 2048 + (r.val - 2048) = r.val; omega) rfl

/-- THE RESULT ARRAY after the concatenation is the specification's result of the argument arrays: the two halves are
    its rows 0 … 2047 and 2048 … 4095, laid in that order. -/
theorem finalV0_of (c : Dev nD)
    (hA : ∀ (t : Fin cfg0.N) (p : Fin 512) (q : Fin 256) (h : 512 * t.val + p.val < 4096),
      blockA (F := Ideal) m c t (ix2 p q) = entryOf m c ⟨512 * t.val + p.val, h⟩ q)
    (hB : ∀ (t : Fin cfg0.N) (p : Fin 512) (q : Fin 256) (h : 2048 + 512 * t.val + p.val < 4096),
      blockB (F := Ideal) m c t (ix2 p q) = entryOf m c ⟨2048 + 512 * t.val + p.val, h⟩ q) :
    finalV0 (F := Ideal) m c
      = Cert.NodeConv.result (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  exact (congrArg (finalV0 (F := Ideal) m c) (eq_ix2 (n0 := 4096) (n1 := 256) i)).trans
    (finalV0_apply m c hA hB (i 0) (i 1))

end Cert.KernelIdeal.HandValue

end
-- ==== Proof.lean ====
/-
  The certificate of a row-split graph-convolution kernel against its reference.

  Both programs compute, for node features attr (4096 × 256), an aggregation matrix mask (4096 × 4096), weight
  matrices w and root (256 × 256) and a bias row (256),

      out = mask · (attr · w) + attr · root + bias.

  The reference does it in four whole-array operations. The kernel walks a grid of four points; at the first it
  computes the message matrix attr · w once into a scratch buffer that stays for the later points, and at point j
  it produces two 512-row blocks of the result at once — rows 512·j … and rows 2048 + 512·j … — from the two
  matching row blocks of mask (the same array handed to the call twice), the matching row slices of attr, the
  scratch, root and the bias row; the two half-height outputs are concatenated afterwards. Over the extended
  reals every entry of either program is literally

      ∑ₖ mask[r,k] · (∑_d attr[k,d] · w[d,c])  +  ∑_d attr[r,d] · root[d,c]  +  bias[c],

  with the same grouping on both sides, so the two results agree entry by entry with no appeal to finiteness of
  the inputs: the only work is to identify which rows of which arrays each block reads and writes.

  The three frame claims (each program terminates without fault and leaves its arguments unchanged) come from
  the programs' runs: the two kernels' from the launch of the pipelined call (the body run once per control case,
  the scratch carried in the invariant, the shared aggregation matrix dealt to its two windows as half shares),
  the reference's from its run as a straight line of host operations. The idealization rewrote nothing, so
  there is nothing to preserve.
-/
import proofs.«126694_g89275190215169_cont_sun_m_580_10_alg».proof.Defs
import proofs.«126694_g89275190215169_cont_sun_m_580_10_alg».proof.Proof.Gen.Kernel
import proofs.«126694_g89275190215169_cont_sun_m_580_10_alg».proof.Proof.Gen.KernelIdeal
import proofs.«126694_g89275190215169_cont_sun_m_580_10_alg».proof.Proof.Gen.ReferenceIdeal
import proofs.«126694_g89275190215169_cont_sun_m_580_10_alg».proof.Proof.Gen.Pre_finite_inputs
import proofs.«126694_g89275190215169_cont_sun_m_580_10_alg».proof.Proof.Gen.ReferenceIdeal.Run
import proofs.«126694_g89275190215169_cont_sun_m_580_10_alg».proof.Proof.Gen.ReferenceIdeal.Read
import proofs.«126694_g89275190215169_cont_sun_m_580_10_alg».proof.Proof.WordLaunch
import proofs.«126694_g89275190215169_cont_sun_m_580_10_alg».proof.Proof.IdealLaunch
import proofs.«126694_g89275190215169_cont_sun_m_580_10_alg».proof.Proof.RefValue
import proofs.«126694_g89275190215169_cont_sun_m_580_10_alg».proof.Proof.IdealBlocks
import proofs.«126694_g89275190215169_cont_sun_m_580_10_alg».proof.Proof.IdealArrays
import Idealize.ShloMosaic.Adequacy
import Idealize.ShloMosaic.Init

noncomputable section

namespace Cert.Proof

open Idealize.ShloMosaic Idealize.ShloMosaic.TcCoe Idealize.SL.Sem

/-- The word-level kernel runs to the end and leaves its five arguments as launched. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the idealized kernel. -/
theorem frame_kernel_ideal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- And the reference: its run as a line of host operations, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the idealized kernel ends with the result array at output a's
    rows above output b's, which entry by entry is  mask · (attr · w) + attr · root + bias ; the reference's composed
    term is the same function of the same arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.finalV0 (F := Ideal) m c, Cert.KernelIdeal.Hand.run_main (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v6_eq, Cert.NodeConv.RefValue.reference_is_result, (hagree c).1, (hagree c).2.1, (hagree c).2.2.1, (hagree c).2.2.2.1, (hagree c).2.2.2.2]
  exact (Cert.KernelIdeal.HandValue.finalV0_of m c (fun t p q _ => Cert.KernelIdeal.HandValue.blockA_entry m c t p q)
    (fun t p q _ => Cert.KernelIdeal.HandValue.blockB_entry m c t p q)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
